-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S64x1024 : Shape := ⟨2, ![64, 1024]⟩
abbrev S1024x1024 : Shape := ⟨2, ![1024, 1024]⟩
abbrev S1024x64 : Shape := ⟨2, ![1024, 64]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_arg4 : FVec F S64x1024 .f32) (main_arg5 : FVec F S1024x64 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S64x1024 .f32 := Host.absf main_arg4
  let main_cst_6 : FVec F S_ .f32 := constant S_ .f32 0x7F800000#32
  let main_v20 : FVec F S64x1024 .f32 := broadcastInDim S64x1024 ![] bcast_S_S64x1024 main_cst_6
  let main_v21 : IVec S64x1024 1 := cmpf .olt main_v19 main_v20
  let main_c_7 : IVec S_ 1 := constantI S_ 1 1#1
  let main_v22 : IVec S_ 1 := (fun x v => Host.reduce IntOp.andi x v reducesTo_S64x1024_S_d0_1 h_S_) main_v21 main_c_7
  let main_v23 : IVec S_ 1 := andi main_v18 main_v22
  let main_v24 : FVec F S1024x64 .f32 := Host.absf main_arg5
  let main_cst_8 : FVec F S_ .f32 := constant S_ .f32 0x7F800000#32
  let main_v25 : FVec F S1024x64 .f32 := broadcastInDim S1024x64 ![] bcast_S_S1024x64 main_cst_8
  let main_v26 : IVec S1024x64 1 := cmpf .olt main_v24 main_v25
  let main_c_9 : IVec S_ 1 := constantI S_ 1 1#1
  let main_v27 : IVec S_ 1 := (fun x v => Host.reduce IntOp.andi x v reducesTo_S1024x64_S_d0_1 h_S_) main_v26 main_c_9
  let main_v28 : IVec S_ 1 := andi main_v23 main_v27
  main_v28

def fn {F : FTy → Type} [FloatOps F] (main_arg0 : FVec F S8x2048x1024 .f32) (main_arg1 : FVec F S64x1024 .f32) (main_arg2 : FVec F S64x1024 .f32) (main_arg3 : FVec F S1024x1024 .f32) (main_arg4 : FVec F S64x1024 .f32) (main_arg5 : FVec F S1024x64 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S8x2048x1024 : Shape := ⟨3, ![8, 2048, 1024]⟩
abbrev S64x1024 : Shape := ⟨2, ![64, 1024]⟩
abbrev S1024x1024 : Shape := ⟨2, ![1024, 1024]⟩
abbrev S1024x64 : Shape := ⟨2, ![1024, 64]⟩
abbrev S1x2048x1024 : Shape := ⟨3, ![1, 2048, 1024]⟩
abbrev S2048x64 : Shape := ⟨2, ![2048, 64]⟩
abbrev S1x512x1024 : Shape := ⟨3, ![1, 512, 1024]⟩
abbrev S512x1024 : Shape := ⟨2, ![512, 1024]⟩
abbrev S512x64 : Shape := ⟨2, ![512, 64]⟩

abbrev nBuf : Space → Nat
  | .hbm => 15
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S64x1024, .f32⟩
  | .hbm, ⟨2, _⟩ => ⟨S64x1024, .f32⟩
  | .hbm, ⟨3, _⟩ => ⟨S1024x1024, .f32⟩
  | .hbm, ⟨4, _⟩ => ⟨S64x1024, .f32⟩
  | .hbm, ⟨5, _⟩ => ⟨S1024x64, .f32⟩
  | .hbm, ⟨6, _⟩ => ⟨S1024x64, .f32⟩
  | .hbm, ⟨7, _⟩ => ⟨S1024x64, .bf16⟩
  | .hbm, ⟨8, _⟩ => ⟨S1024x64, .f32⟩
  | .hbm, ⟨9, _⟩ => ⟨S1024x64, .bf16⟩
  | .hbm, ⟨10, _⟩ => ⟨S1024x1024, .f32⟩
  | .hbm, ⟨11, _⟩ => ⟨S1024x1024, .bf16⟩
  | .hbm, ⟨12, _⟩ => ⟨S1024x64, .f32⟩
  | .hbm, ⟨13, _⟩ => ⟨S64x1024, .f32⟩
  | .hbm, ⟨14, _⟩ => ⟨S8x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x64, .bf16⟩
  | .local _ .vmem, ⟨3, _⟩ => ⟨S1024x64, .bf16⟩
  | .local _ .vmem, ⟨4, _⟩ => ⟨S1024x1024, .bf16⟩
  | .local _ .vmem, ⟨5, _⟩ => ⟨S1024x64, .f32⟩
  | .local _ .vmem, ⟨6, _⟩ => ⟨S64x1024, .f32⟩
  | .local _ .vmem, ⟨7, _⟩ => ⟨S1x2048x1024, .f32⟩
  | .local _ .vmem, ⟨8, _⟩ => ⟨S1x2048x1024, .f32⟩
  | .local _ .vmem, ⟨9, _⟩ => ⟨S64x1024, .f32⟩
  | .local _ .vmem, ⟨10, _⟩ => ⟨S2048x64, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c512_i32 : BitVec 32 := 512#32
  let v4 : BitVec 32 := Scalar.muli c0_i32 c512_i32
  v4
def k0_off1 (c0_i32 : BitVec 32) : Fin 3 → Nat :=
  let c0_1 : Index := 0#32
  let c512_i32 : BitVec 32 := 512#32
  let v4 : BitVec 32 := Scalar.muli c0_i32 c512_i32
  let v5 : BitVec 32 := v4
  let v6 : Index := Scalar.indexCast v5
  let c0_2 : Index := 0#32
  ![0, v6.toNat, 0]
def k0_off2 (c0_i32 : BitVec 32) : Fin 2 → Nat :=
  let c512_i32 : BitVec 32 := 512#32
  let v4 : BitVec 32 := Scalar.muli c0_i32 c512_i32
  let v5 : BitVec 32 := v4
  let v16 : Index := Scalar.indexCast v5
  let c0_9 : Index := 0#32
  ![v16.toNat, 0]
def k0_mult2 : BitVec 32 :=
  let c1_i32 : BitVec 32 := 1#32
  let c512_i32_18 : BitVec 32 := 512#32
  let v31 : BitVec 32 := Scalar.muli c1_i32 c512_i32_18
  v31
def k0_mult3 : BitVec 32 :=
  let c2_i32 : BitVec 32 := 2#32
  let c512_i32_36 : BitVec 32 := 512#32
  let v58 : BitVec 32 := Scalar.muli c2_i32 c512_i32_36
  v58
def k0_mult4 : BitVec 32 :=
  let c3_i32 : BitVec 32 := 3#32
  let c512_i32_54 : BitVec 32 := 512#32
  let v85 : BitVec 32 := Scalar.muli c3_i32 c512_i32_54
  v85
def k0_mult5 : BitVec 32 :=
  let c0_i32_74 : BitVec 32 := 0#32
  let c512_i32_75 : BitVec 32 := 512#32
  let v114 : BitVec 32 := Scalar.muli c0_i32_74 c512_i32_75
  v114
def k0_mult6 : BitVec 32 :=
  let c1_i32_88 : BitVec 32 := 1#32
  let c512_i32_89 : BitVec 32 := 512#32
  let v134 : BitVec 32 := Scalar.muli c1_i32_88 c512_i32_89
  v134
def k0_mult7 : BitVec 32 :=
  let c2_i32_102 : BitVec 32 := 2#32
  let c512_i32_103 : BitVec 32 := 512#32
  let v154 : BitVec 32 := Scalar.muli c2_i32_102 c512_i32_103
  v154
def k0_mult8 : BitVec 32 :=
  let c3_i32_116 : BitVec 32 := 3#32
  let c512_i32_117 : BitVec 32 := 512#32
  let v174 : BitVec 32 := Scalar.muli c3_i32_116 c512_i32_117
  v174
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2048x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S64x1024_S1024x64_1_0 : S64x1024.Transposes [1, 0] S1024x64
  bitsLt_bf16_f32 : FTy.bits .bf16 < FTy.bits .f32
  transposes_S1024x1024_S1024x1024_1_0 : S1024x1024.Transposes [1, 0] S1024x1024
  transposes_S1024x64_S64x1024_1_0 : S1024x64.Transposes [1, 0] S64x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  h_S1x512x1024 : 0 < S1x512x1024.numel
  shapeCasts_S1x512x1024_S512x1024 : S1x512x1024.ShapeCasts S512x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  h_S512x64 : 0 < S512x64.numel
  shapeCasts_S512x64_S512x64 : S512x64.ShapeCasts S512x64
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S1x512x1024 : S512x1024.ShapeCasts S1x512x1024
  dot_S512x1024_S1024x64_S512x64_1_0_0_1_n_n_wf : DotDims.WF S512x1024 S1024x64 S512x64 [1] [0] [0] [1] [] []
  dot_S512x1024_S1024x1024_S512x1024_1_0_0_1_n_n_wf : DotDims.WF S512x1024 S1024x1024 S512x1024 [1] [0] [0] [1] [] []
  dot_S512x64_S512x1024_S64x1024_0_0_1_1_n_n_wf : DotDims.WF S512x64 S512x1024 S64x1024 [0] [0] [1] [1] [] []
  dot_S512x64_S64x1024_S512x1024_1_0_0_1_n_n_wf : DotDims.WF S512x64 S64x1024 S512x1024 [1] [0] [0] [1] [] []
  hrank0 : 0 < grid0.rank
  k0_mult1_dvd : 512 ∣ k0_mult1.toNat
  k0_off1_inb : ∀ (r : Fin 4), ∀ a, (k0_off1 (BitVec.ofNat 32 r.val)) a + S1x512x1024.size a ≤ S1x2048x1024.size a
  k0_off2_inb : ∀ (r : Fin 4), ∀ a, (k0_off2 (BitVec.ofNat 32 r.val)) a + S512x64.size a ≤ S2048x64.size a
  k0_mult2_dvd : 512 ∣ k0_mult2.toNat
  k0_mult3_dvd : 512 ∣ k0_mult3.toNat
  k0_mult4_dvd : 512 ∣ k0_mult4.toNat
  k0_mult5_dvd : 512 ∣ k0_mult5.toNat
  k0_mult6_dvd : 512 ∣ k0_mult6.toNat
  k0_mult7_dvd : 512 ∣ k0_mult7.toNat
  k0_mult8_dvd : 512 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x1024.size a
  hwx0_0 : ∀ i : grid0.Coords, EltTy.bits .f32 = 32 ∨ (Rect.block (s := S8x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .bf16 = 32 ∨ (Rect.block (s := S1024x64) S1024x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .bf16 = 32 ∨ (Rect.block (s := S1024x64) S1024x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S1024x64.size a
  hwx0_4 : ∀ i : grid0.Coords, EltTy.bits .f32 = 32 ∨ (Rect.block (s := S1024x64) S1024x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1024.size a ≤ S64x1024.size a
  hwx0_5 : ∀ i : grid0.Coords, EltTy.bits .f32 = 32 ∨ (Rect.block (s := S64x1024) S64x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2048x1024.size a ≤ S8x2048x1024.size a
  hwx0_6 : ∀ i : grid0.Coords, EltTy.bits .f32 = 32 ∨ (Rect.block (s := S8x2048x1024) S1x2048x1024.size (cc0_transform_6 i) (hinb0_6 i)).WholeWords (EltTy.packing .f32)

variable [Facts₀]

def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x64_S512x1024_S64x1024_0_0_1_1_n_n : DotDims S512x64 S512x1024 S64x1024 where
  lhsContracting := [0]
  rhsContracting := [0]
  lhsNonContracting := [1]
  rhsNonContracting := [1]
  lhsBatch := []
  rhsBatch := []
  wf := dot_S512x64_S512x1024_S64x1024_0_0_1_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S64x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x2048x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S64x1024 : Shape := ⟨2, ![64, 1024]⟩
abbrev S1024x1024 : Shape := ⟨2, ![1024, 1024]⟩
abbrev S1024x64 : Shape := ⟨2, ![1024, 64]⟩
abbrev S8x2048x64 : Shape := ⟨3, ![8, 2048, 64]⟩
abbrev S8x2048x2048 : Shape := ⟨3, ![8, 2048, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S64x1024, .f32⟩
  | .hbm, ⟨2, _⟩ => ⟨S64x1024, .f32⟩
  | .hbm, ⟨3, _⟩ => ⟨S1024x1024, .f32⟩
  | .hbm, ⟨4, _⟩ => ⟨S64x1024, .f32⟩
  | .hbm, ⟨5, _⟩ => ⟨S1024x64, .f32⟩
  | .hbm, ⟨6, _⟩ => ⟨S8x2048x64, .f32⟩
  | .hbm, ⟨7, _⟩ => ⟨S8x2048x64, .f32⟩
  | .hbm, ⟨8, _⟩ => ⟨S8x2048x1024, .f32⟩
  | .hbm, ⟨9, _⟩ => ⟨S8x2048x2048, .f32⟩
  | .hbm, ⟨10, _⟩ => ⟨S8x2048x1024, .f32⟩
  | .hbm, ⟨11, _⟩ => ⟨S8x2048x1024, .f32⟩
  | .hbm, ⟨12, _⟩ => ⟨S8x2048x64, .f32⟩
  | .hbm, ⟨13, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  dot_S8x2048x1024_S64x1024_S8x2048x64_2_1_01_0_n_n_wf : DotDims.WF S8x2048x1024 S64x1024 S8x2048x64 [2] [1] [0, 1] [0] [] []
  dot_S8x2048x1024_S1024x1024_S8x2048x1024_2_1_01_0_n_n_wf : DotDims.WF S8x2048x1024 S1024x1024 S8x2048x1024 [2] [1] [0, 1] [0] [] []
  dot_S8x2048x64_S8x2048x64_S8x2048x2048_2_2_1_1_0_0_wf : DotDims.WF S8x2048x64 S8x2048x64 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]
  dot_S8x2048x64_S1024x64_S8x2048x1024_2_1_01_0_n_n_wf : DotDims.WF S8x2048x64 S1024x64 S8x2048x1024 [2] [1] [0, 1] [0] [] []

variable [Facts₀]

def dot_S8x2048x1024_S64x1024_S8x2048x64_2_1_01_0_n_n : DotDims S8x2048x1024 S64x1024 S8x2048x64 where
  lhsContracting := [2]
  rhsContracting := [1]
  lhsNonContracting := [0, 1]
  rhsNonContracting := [0]
  lhsBatch := []
  rhsBatch := []
  wf := dot_S8x2048x1024_S64x1024_S8x2048x64_2_1_01_0_n_n_wf
def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf
def dot_S8x2048x64_S1024x64_S8x2048x1024_2_1_01_0_n_n : DotDims S8x2048x64 S1024x64 S8x2048x1024 where
  lhsContracting := [2]
  rhsContracting := [1]
  lhsNonContracting := [0, 1]
  rhsNonContracting := [0]
  lhsBatch := []
  rhsBatch := []
  wf := dot_S8x2048x64_S1024x64_S8x2048x1024_2_1_01_0_n_n_wf

class Facts : Prop extends Facts₀ where

variable [Facts]
-- ==== Proof.MatmulRead.lean ====
/-
  The four matrix products of the kernel body, read at an entry, at the exact (extended-real) instance.  A product
  accumulated into the zero splat is the plain sum over the contracted axis: for the three products that contract the
  left operand's columns with the right operand's rows, entry (p, q) is ∑ₖ a(p, k) · b(k, q); for the product that
  contracts the ROWS of both operands (Kᵀ V of one tile), entry (k, e) is ∑ᵣ a(r, k) · b(r, e).
-/
import proofs.«129097_j8014408974649_2_alg».proof.Proof.Gen.KernelIdeal
import Idealize.ShloMosaic.PureOps.Ideal.Laws
import Idealize.ShloMosaic.Lib.ValueIdx

noncomputable section

namespace Cert.KernelIdeal.MatmulRead

open Cert.KernelIdeal Idealize.ShloMosaic Idealize.ShloMosaic.ValueIdx

variable {φ₁ φ₂ : FTy}

theorem mm_proj64_lhs_free (i : S512x64.Idx) (g : dot_S512x1024_S1024x64_S512x64_1_0_0_1_n_n.contr.Idx) :
    (dot_S512x1024_S1024x64_S512x64_1_0_0_1_n_n.lhsIdx i g 0).val = (i 0).val := by
  unfold DotDims.lhsIdx
  rw [dif_neg (show ¬(0 : Fin S512x1024.rank) ∈ dot_S512x1024_S1024x64_S512x64_1_0_0_1_n_n.lhsBatch by decide), dif_pos (show (0 : Fin S512x1024.rank) ∈ dot_S512x1024_S1024x64_S512x64_1_0_0_1_n_n.lhsNonContracting by decide)]
  rfl
theorem mm_proj64_lhs_contr (i : S512x64.Idx) (g : dot_S512x1024_S1024x64_S512x64_1_0_0_1_n_n.contr.Idx) :
    (dot_S512x1024_S1024x64_S512x64_1_0_0_1_n_n.lhsIdx i g 1).val = (g ⟨0, by decide⟩).val :=
  dot_S512x1024_S1024x64_S512x64_1_0_0_1_n_n.lhsIdx_val_of_single rfl i g
theorem mm_proj64_rhs_contr (i : S512x64.Idx) (g : dot_S512x1024_S1024x64_S512x64_1_0_0_1_n_n.contr.Idx) :
    (dot_S512x1024_S1024x64_S512x64_1_0_0_1_n_n.rhsIdx i g 0).val = (g ⟨0, by decide⟩).val :=
  dot_S512x1024_S1024x64_S512x64_1_0_0_1_n_n.rhsIdx_val_of_single rfl i g
theorem mm_proj64_rhs_free (i : S512x64.Idx) (g : dot_S512x1024_S1024x64_S512x64_1_0_0_1_n_n.contr.Idx) :
    (dot_S512x1024_S1024x64_S512x64_1_0_0_1_n_n.rhsIdx i g 1).val = (i 1).val := by
  unfold DotDims.rhsIdx
  rw [dif_neg (show ¬(1 : Fin S1024x64.rank) ∈ dot_S512x1024_S1024x64_S512x64_1_0_0_1_n_n.rhsBatch by decide), dif_pos (show (1 : Fin S1024x64.rank) ∈ dot_S512x1024_S1024x64_S512x64_1_0_0_1_n_n.rhsNonContracting by decide)]
  rfl

/-- A tile of a 64-column projection: [512, 1024] · [1024, 64]. -/
theorem mm_proj64 (a : FVec Ideal S512x1024 φ₁) (b : FVec Ideal S1024x64 φ₂) (p : Fin 512) (q : Fin 64) :
    matmul dot_S512x1024_S1024x64_S512x64_1_0_0_1_n_n none a b (constant S512x64 .f32 0x00000000#32) (ix2 p q)
      = ∑ k : Fin 1024, a (ix2 p k) * b (ix2 k q) := by
  simp only [matmul]
  rw [Ideal.matmul_constant_zero_apply, ← Equiv.sum_comp (contrEquiv1 dot_S512x1024_S1024x64_S512x64_1_0_0_1_n_n 1024 rfl rfl).symm]
  refine Finset.sum_congr rfl fun k _ => ?_
  have hk := contrEquiv1_symm_val dot_S512x1024_S1024x64_S512x64_1_0_0_1_n_n 1024 rfl rfl k
  have el : dot_S512x1024_S1024x64_S512x64_1_0_0_1_n_n.lhsIdx (ix2 p q) ((contrEquiv1 dot_S512x1024_S1024x64_S512x64_1_0_0_1_n_n 1024 rfl rfl).symm k) = ix2 p k := funext fun a => Fin.ext (by
    match a with
    | ⟨0, _⟩ => exact mm_proj64_lhs_free _ _
    | ⟨1, _⟩ => exact (mm_proj64_lhs_contr _ _).trans hk)
  have er : dot_S512x1024_S1024x64_S512x64_1_0_0_1_n_n.rhsIdx (ix2 p q) ((contrEquiv1 dot_S512x1024_S1024x64_S512x64_1_0_0_1_n_n 1024 rfl rfl).symm k) = ix2 k q := funext fun a => Fin.ext (by
    match a with
    | ⟨0, _⟩ => exact (mm_proj64_rhs_contr _ _).trans hk
    | ⟨1, _⟩ => exact mm_proj64_rhs_free _ _)
  rw [el, er]

theorem mm_proj1024_lhs_free (i : S512x1024.Idx) (g : dot_S512x1024_S1024x1024_S512x1024_1_0_0_1_n_n.contr.Idx) :
    (dot_S512x1024_S1024x1024_S512x1024_1_0_0_1_n_n.lhsIdx i g 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem mm_proj1024_lhs_contr (i : S512x1024.Idx) (g : dot_S512x1024_S1024x1024_S512x1024_1_0_0_1_n_n.contr.Idx) :
    (dot_S512x1024_S1024x1024_S512x1024_1_0_0_1_n_n.lhsIdx i g 1).val = (g ⟨0, by decide⟩).val :=
  dot_S512x1024_S1024x1024_S512x1024_1_0_0_1_n_n.lhsIdx_val_of_single rfl i g
theorem mm_proj1024_rhs_contr (i : S512x1024.Idx) (g : dot_S512x1024_S1024x1024_S512x1024_1_0_0_1_n_n.contr.Idx) :
    (dot_S512x1024_S1024x1024_S512x1024_1_0_0_1_n_n.rhsIdx i g 0).val = (g ⟨0, by decide⟩).val :=
  dot_S512x1024_S1024x1024_S512x1024_1_0_0_1_n_n.rhsIdx_val_of_single rfl i g
theorem mm_proj1024_rhs_free (i : S512x1024.Idx) (g : dot_S512x1024_S1024x1024_S512x1024_1_0_0_1_n_n.contr.Idx) :
    (dot_S512x1024_S1024x1024_S512x1024_1_0_0_1_n_n.rhsIdx i g 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A tile of the value projection: [512, 1024] · [1024, 1024]. -/
theorem mm_proj1024 (a : FVec Ideal S512x1024 φ₁) (b : FVec Ideal S1024x1024 φ₂) (p : Fin 512) (q : Fin 1024) :
    matmul dot_S512x1024_S1024x1024_S512x1024_1_0_0_1_n_n none a b (constant S512x1024 .f32 0x00000000#32) (ix2 p q)
      = ∑ k : Fin 1024, a (ix2 p k) * b (ix2 k q) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun a => Fin.ext (by
    match a with
    | ⟨0, _⟩ => exact mm_proj1024_lhs_free _ _
    | ⟨1, _⟩ => exact (mm_proj1024_lhs_contr _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun a => Fin.ext (by
    match a with
    | ⟨0, _⟩ => exact (mm_proj1024_rhs_contr _ _).trans hk
    | ⟨1, _⟩ => exact mm_proj1024_rhs_free _ _)
  rw [el, er]

theorem mm_rows_lhs_free (i : S64x1024.Idx) (g : dot_S512x64_S512x1024_S64x1024_0_0_1_1_n_n.contr.Idx) :
    (dot_S512x64_S512x1024_S64x1024_0_0_1_1_n_n.lhsIdx i g 1).val = (i 0).val := by
  unfold DotDims.lhsIdx
  rw [dif_neg (show ¬(1 : Fin S512x64.rank) ∈ dot_S512x64_S512x1024_S64x1024_0_0_1_1_n_n.lhsBatch by decide), dif_pos (show (1 : Fin S512x64.rank) ∈ dot_S512x64_S512x1024_S64x1024_0_0_1_1_n_n.lhsNonContracting by decide)]
  rfl
theorem mm_rows_lhs_contr (i : S64x1024.Idx) (g : dot_S512x64_S512x1024_S64x1024_0_0_1_1_n_n.contr.Idx) :
    (dot_S512x64_S512x1024_S64x1024_0_0_1_1_n_n.lhsIdx i g 0).val = (g ⟨0, by decide⟩).val :=
  dot_S512x64_S512x1024_S64x1024_0_0_1_1_n_n.lhsIdx_val_of_single rfl i g
theorem mm_rows_rhs_contr (i : S64x1024.Idx) (g : dot_S512x64_S512x1024_S64x1024_0_0_1_1_n_n.contr.Idx) :
    (dot_S512x64_S512x1024_S64x1024_0_0_1_1_n_n.rhsIdx i g 0).val = (g ⟨0, by decide⟩).val :=
  dot_S512x64_S512x1024_S64x1024_0_0_1_1_n_n.rhsIdx_val_of_single rfl i g
theorem mm_rows_rhs_free (i : S64x1024.Idx) (g : dot_S512x64_S512x1024_S64x1024_0_0_1_1_n_n.contr.Idx) :
    (dot_S512x64_S512x1024_S64x1024_0_0_1_1_n_n.rhsIdx i g 1).val = (i 1).val := by
  unfold DotDims.rhsIdx
  rw [dif_neg (show ¬(1 : Fin S512x1024.rank) ∈ dot_S512x64_S512x1024_S64x1024_0_0_1_1_n_n.rhsBatch by decide), dif_pos (show (1 : Fin S512x1024.rank) ∈ dot_S512x64_S512x1024_S64x1024_0_0_1_1_n_n.rhsNonContracting by decide)]
  rfl

/-- One tile's Kᵀ V: the ROWS of both operands are contracted, [512, 64]ᵀ · [512, 1024]. -/
theorem mm_rows (a : FVec Ideal S512x64 φ₁) (b : FVec Ideal S512x1024 φ₂) (p : Fin 64) (q : Fin 1024) :
    matmul dot_S512x64_S512x1024_S64x1024_0_0_1_1_n_n none a b (constant S64x1024 .f32 0x00000000#32) (ix2 p q)
      = ∑ k : Fin 512, a (ix2 k p) * b (ix2 k q) := by
  simp only [matmul]
  rw [Ideal.matmul_constant_zero_apply, ← Equiv.sum_comp (contrEquiv1 dot_S512x64_S512x1024_S64x1024_0_0_1_1_n_n 512 rfl rfl).symm]
  refine Finset.sum_congr rfl fun k _ => ?_
  have hk := contrEquiv1_symm_val dot_S512x64_S512x1024_S64x1024_0_0_1_1_n_n 512 rfl rfl k
  have el : dot_S512x64_S512x1024_S64x1024_0_0_1_1_n_n.lhsIdx (ix2 p q) ((contrEquiv1 dot_S512x64_S512x1024_S64x1024_0_0_1_1_n_n 512 rfl rfl).symm k) = ix2 k p := funext fun a => Fin.ext (by
    match a with
    | ⟨1, _⟩ => exact mm_rows_lhs_free _ _
    | ⟨0, _⟩ => exact (mm_rows_lhs_contr _ _).trans hk)
  have er : dot_S512x64_S512x1024_S64x1024_0_0_1_1_n_n.rhsIdx (ix2 p q) ((contrEquiv1 dot_S512x64_S512x1024_S64x1024_0_0_1_1_n_n 512 rfl rfl).symm k) = ix2 k q := funext fun a => Fin.ext (by
    match a with
    | ⟨0, _⟩ => exact (mm_rows_rhs_contr _ _).trans hk
    | ⟨1, _⟩ => exact mm_rows_rhs_free _ _)
  rw [el, er]

theorem mm_inner64_lhs_free (i : S512x1024.Idx) (g : dot_S512x64_S64x1024_S512x1024_1_0_0_1_n_n.contr.Idx) :
    (dot_S512x64_S64x1024_S512x1024_1_0_0_1_n_n.lhsIdx i g 0).val = (i 0).val := by
  unfold DotDims.lhsIdx
  rw [dif_neg (show ¬(0 : Fin S512x64.rank) ∈ dot_S512x64_S64x1024_S512x1024_1_0_0_1_n_n.lhsBatch by decide), dif_pos (show (0 : Fin S512x64.rank) ∈ dot_S512x64_S64x1024_S512x1024_1_0_0_1_n_n.lhsNonContracting by decide)]
  rfl
theorem mm_inner64_lhs_contr (i : S512x1024.Idx) (g : dot_S512x64_S64x1024_S512x1024_1_0_0_1_n_n.contr.Idx) :
    (dot_S512x64_S64x1024_S512x1024_1_0_0_1_n_n.lhsIdx i g 1).val = (g ⟨0, by decide⟩).val :=
  dot_S512x64_S64x1024_S512x1024_1_0_0_1_n_n.lhsIdx_val_of_single rfl i g
theorem mm_inner64_rhs_contr (i : S512x1024.Idx) (g : dot_S512x64_S64x1024_S512x1024_1_0_0_1_n_n.contr.Idx) :
    (dot_S512x64_S64x1024_S512x1024_1_0_0_1_n_n.rhsIdx i g 0).val = (g ⟨0, by decide⟩).val :=
  dot_S512x64_S64x1024_S512x1024_1_0_0_1_n_n.rhsIdx_val_of_single rfl i g
theorem mm_inner64_rhs_free (i : S512x1024.Idx) (g : dot_S512x64_S64x1024_S512x1024_1_0_0_1_n_n.contr.Idx) :
    (dot_S512x64_S64x1024_S512x1024_1_0_0_1_n_n.rhsIdx i g 1).val = (i 1).val := by
  unfold DotDims.rhsIdx
  rw [dif_neg (show ¬(1 : Fin S64x1024.rank) ∈ dot_S512x64_S64x1024_S512x1024_1_0_0_1_n_n.rhsBatch by decide), dif_pos (show (1 : Fin S64x1024.rank) ∈ dot_S512x64_S64x1024_S512x1024_1_0_0_1_n_n.rhsNonContracting by decide)]
  rfl

/-- A product over the 64 inner features: [512, 64] · [64, 1024]. -/
theorem mm_inner64 (a : FVec Ideal S512x64 φ₁) (b : FVec Ideal S64x1024 φ₂) (p : Fin 512) (q : Fin 1024) :
    matmul dot_S512x64_S64x1024_S512x1024_1_0_0_1_n_n none a b (constant S512x1024 .f32 0x00000000#32) (ix2 p q)
      = ∑ k : Fin 64, a (ix2 p k) * b (ix2 k q) := by
  simp only [matmul]
  rw [Ideal.matmul_constant_zero_apply, ← Equiv.sum_comp (contrEquiv1 dot_S512x64_S64x1024_S512x1024_1_0_0_1_n_n 64 rfl rfl).symm]
  refine Finset.sum_congr rfl fun k _ => ?_
  have hk := contrEquiv1_symm_val dot_S512x64_S64x1024_S512x1024_1_0_0_1_n_n 64 rfl rfl k
  have el : dot_S512x64_S64x1024_S512x1024_1_0_0_1_n_n.lhsIdx (ix2 p q) ((contrEquiv1 dot_S512x64_S64x1024_S512x1024_1_0_0_1_n_n 64 rfl rfl).symm k) = ix2 p k := funext fun a => Fin.ext (by
    match a with
    | ⟨0, _⟩ => exact mm_inner64_lhs_free _ _
    | ⟨1, _⟩ => exact (mm_inner64_lhs_contr _ _).trans hk)
  have er : dot_S512x64_S64x1024_S512x1024_1_0_0_1_n_n.rhsIdx (ix2 p q) ((contrEquiv1 dot_S512x64_S64x1024_S512x1024_1_0_0_1_n_n 64 rfl rfl).symm k) = ix2 k q := funext fun a => Fin.ext (by
    match a with
    | ⟨0, _⟩ => exact (mm_inner64_rhs_contr _ _).trans hk
    | ⟨1, _⟩ => exact mm_inner64_rhs_free _ _)
  rw [el, er]

end Cert.KernelIdeal.MatmulRead

end
-- ==== Proof.TileRead.lean ====
/-
  The three computations the kernel body repeats for each tile of 512 rows, read at an entry over the extended reals
  (a change of float format is the identity there, and a cast between equal shapes changes nothing):

    * a tile of a 64-column projection,  (X_j W)(r, k) = ∑_d X_j(r, d) · W(d, k);
    * one accumulation step of Kᵀ V:     acc(k, e) + ∑_r (X_j Wk)(r, k) · (X_j Wv)(r, e);
    * a tile of the output:              ∑_k (∑_e (X_j(r, e) + ∑_k' Q_j(r, k') · KV(k', e)) · W1(e, k)) · W2(k, d).

  The body's other stored values are these three again under other names (the unrolled loop repeats its text), which
  is checked by unfolding alone.
-/
import proofs.«129097_j8014408974649_2_alg».proof.Proof.Gen.KernelIdeal.Skeleton
import proofs.«129097_j8014408974649_2_alg».proof.Proof.MatmulRead
import Idealize.ShloMosaic.Lib.ValueLayout
import Idealize.ShloMosaic.Lib.Pipeline.Value

noncomputable section

namespace Cert.KernelIdeal.TileRead

open Cert.KernelIdeal Cert.KernelIdeal.Gen Cert.KernelIdeal.MatmulRead Idealize.ShloMosaic Idealize.ShloMosaic.ValueIdx

/-! ## The repeated text -/

section repeats
variable {F : FTy → Type} [FloatOps F]

theorem pay8_eq (a : Vec F S1x512x1024 .f32) (w : Vec F S1024x64 .bf16) : k0_pay8 a w = k0_pay5 a w := rfl
theorem pay12_eq (a : Vec F S1x512x1024 .f32) (w : Vec F S1024x64 .bf16) :
    k0_pay12 (k0_pay10 a) (k0_pay11 w) (constant S512x64 .f32 0#32) = k0_pay5 a w := rfl
theorem pay16_eq (a : Vec F S1x512x1024 .f32) (w : Vec F S1024x64 .bf16) : k0_pay16 a w = k0_pay5 a w := rfl
theorem pay9_eq (a : Vec F S1x512x1024 .f32) (wk : Vec F S1024x64 .bf16) (wv : Vec F S1024x1024 .bf16) (acc : Vec F S64x1024 .f32) :
    k0_pay9 a wk wv acc = k0_pay6 a wk wv acc := rfl
theorem pay13_eq (a : Vec F S1x512x1024 .f32) (wk : Vec F S1024x64 .bf16) (wv : Vec F S1024x1024 .bf16) (acc : Vec F S64x1024 .f32) :
    k0_pay13 (k0_pay10 a) wk wv acc = k0_pay6 a wk wv acc := rfl
theorem pay17_eq (a : Vec F S1x512x1024 .f32) (wk : Vec F S1024x64 .bf16) (wv : Vec F S1024x1024 .bf16) (acc : Vec F S64x1024 .f32) :
    k0_pay17 (k0_pay14 a) (k0_pay15 a wk) wv acc = k0_pay6 a wk wv acc := rfl
theorem pay20_eq (kv : Vec F S64x1024 .f32) (a : Vec F S1x512x1024 .f32) (q : Vec F S512x64 .f32) (w1 : Vec F S1024x64 .f32) (w2 : Vec F S64x1024 .f32) :
    k0_pay20 (k0_pay18 kv) a q w1 w2 = k0_pay19 kv a q w1 w2 := rfl
theorem pay2_eq (kv : Vec F S64x1024 .f32) (a : Vec F S1x512x1024 .f32) (q : Vec F S512x64 .f32) (w1 : Vec F S1024x64 .f32) (w2 : Vec F S64x1024 .f32) :
    k0_pay2 (k0_pay18 kv) a q w1 w2 = k0_pay19 kv a q w1 w2 := rfl
theorem pay1_eq (kv : Vec F S64x1024 .f32) (a : Vec F S1x512x1024 .f32) (q : Vec F S512x64 .f32) (w1 : Vec F S1024x64 .f32) (w2 : Vec F S64x1024 .f32) :
    k0_pay1 (k0_pay21 (k0_pay18 kv) a q w1) w2 = k0_pay19 kv a q w1 w2 := rfl

end repeats

/-! ## Read at an entry -/

/-- The zero block the accumulator starts from. -/
theorem zero_apply (k : Fin 64) (e : Fin 1024) : k0_pay3 (F := Ideal) (ix2 k e) = 0 := by
  unfold k0_pay3
  rw [shapeCast_self]
  exact Ideal.ofBits_zero_f32

/-- A tile of rows, cast to the exchange format: the rows themselves. -/
theorem rows_apply (xt : FVec Ideal S1x512x1024 .f32) (r : Fin 512) (d : Fin 1024) :
    k0_pay4 (F := Ideal) xt (ix2 r d) = xt (ix3 (0 : Fin 1) r d) := by
  unfold k0_pay4
  exact shapeCast_1ab_ab_apply xt _ r d

/-- A tile of a 64-column projection. -/
theorem proj_apply (xt : FVec Ideal S1x512x1024 .f32) (w : FVec Ideal S1024x64 .bf16) (r : Fin 512) (k : Fin 64) :
    k0_pay5 (F := Ideal) xt w (ix2 r k) = ∑ d : Fin 1024, xt (ix3 (0 : Fin 1) r d) * w (ix2 d k) := by
  unfold k0_pay5
  rw [shapeCast_self, shapeCast_self]
  refine (mm_proj64 _ _ r k).trans ?_
  exact Finset.sum_congr rfl fun d _ => congrArg (· * w (ix2 d k)) (rows_apply xt r d)

/-- One accumulation step of Kᵀ V. -/
theorem kvStep_apply (xt : FVec Ideal S1x512x1024 .f32) (wk : FVec Ideal S1024x64 .bf16) (wv : FVec Ideal S1024x1024 .bf16)
    (acc : FVec Ideal S64x1024 .f32) (k : Fin 64) (e : Fin 1024) :
    k0_pay6 (F := Ideal) xt wk wv acc (ix2 k e)
      = acc (ix2 k e) + ∑ r : Fin 512, (∑ d : Fin 1024, xt (ix3 (0 : Fin 1) r d) * wk (ix2 d k))
                                        * (∑ d : Fin 1024, xt (ix3 (0 : Fin 1) r d) * wv (ix2 d e)) := by
  unfold k0_pay6
  rw [shapeCast_self, shapeCast_self, shapeCast_self]
  refine congrArg (acc (ix2 k e) + ·) ?_
  refine (mm_rows _ _ k e).trans ?_
  refine Finset.sum_congr rfl fun r _ => ?_
  have hK : matmul dot_S512x1024_S1024x64_S512x64_1_0_0_1_n_n none (k0_pay4 (F := Ideal) xt) wk (constant S512x64 .f32 0x00000000#32) (ix2 r k)
      = ∑ d : Fin 1024, xt (ix3 (0 : Fin 1) r d) * wk (ix2 d k) :=
    (mm_proj64 _ _ r k).trans (Finset.sum_congr rfl fun d _ => congrArg (· * wk (ix2 d k)) (rows_apply xt r d))
  have hV : matmul dot_S512x1024_S1024x1024_S512x1024_1_0_0_1_n_n none (k0_pay4 (F := Ideal) xt) wv (constant S512x1024 .f32 0x00000000#32) (ix2 r e)
      = ∑ d : Fin 1024, xt (ix3 (0 : Fin 1) r d) * wv (ix2 d e) :=
    (mm_proj1024 _ _ r e).trans (Finset.sum_congr rfl fun d _ => congrArg (· * wv (ix2 d e)) (rows_apply xt r d))
  exact congrArg₂ (· * ·) hK hV

/-- A tile of the output. -/
theorem out_apply (kv : FVec Ideal S64x1024 .f32) (xt : FVec Ideal S1x512x1024 .f32) (qt : FVec Ideal S512x64 .f32)
    (w1 : FVec Ideal S1024x64 .f32) (w2 : FVec Ideal S64x1024 .f32) (u : Fin 1) (r : Fin 512) (d : Fin 1024) :
    k0_pay19 (F := Ideal) kv xt qt w1 w2 (ix3 u r d)
      = ∑ k : Fin 64, (∑ e : Fin 1024, (xt (ix3 (0 : Fin 1) r e) + ∑ k' : Fin 64, qt (ix2 r k') * kv (ix2 k' e)) * w1 (ix2 e k))
                        * w2 (ix2 k d) := by
  unfold k0_pay19 k0_pay18
  refine (shapeCast_ab_1ab_apply _ _ u r d).trans ?_
  rw [shapeCast_self, shapeCast_self]
  refine (mm_inner64 _ _ r d).trans ?_
  refine Finset.sum_congr rfl fun k _ => congrArg (· * w2 (ix2 k d)) ?_
  refine (mm_proj64 _ _ r k).trans ?_
  refine Finset.sum_congr rfl fun e _ => congrArg (· * w1 (ix2 e k)) ?_
  refine congrArg₂ (· + ·) (shapeCast_1ab_ab_apply xt _ r e) ?_
  exact mm_inner64 _ _ r e

end Cert.KernelIdeal.TileRead

end
-- ==== Proof.Attention.lean ====
/-
  Linear (softmax-free) attention followed by a two-layer feed-forward tail, for ONE batch entry, written twice over an
  arbitrary carrier with a sum and a product:

    * `refOut`  — scores first:  out = ((X + (Q Kᵀ) V) W1ᵀ) W2ᵀ,  with Q = X Wqᵀ, K = X Wkᵀ, V = X Wvᵀ;
    * `tileOut` — the 2048 rows cut into four tiles of 512 rows; the 64 × 1024 matrix Kᵀ V is accumulated tile by
                   tile, (((0 + P₀) + P₁) + P₂) + P₃ with P_j = K_jᵀ V_j, and each tile of the output is
                   ((X_j + Q_j (Kᵀ V)) W1ᵀ) W2ᵀ.

  Over a commutative semiring the two agree row by row: (Q Kᵀ) V = Q (Kᵀ V) is associativity of the matrix product
  (distributivity and an exchange of two finite sums), and a sum over the 2048 rows is the sum over the four tiles of
  the sums inside each tile.  The extended reals are NOT a semiring (distributivity fails at the infinities), so the
  law is proved over the reals and carried to extended reals that are real numbers by the coercion, which commutes with
  finite sums, products and sums.
-/
import Mathlib.Data.EReal.Basic
import Mathlib.Algebra.BigOperators.Fin
import Mathlib.Algebra.BigOperators.Ring.Finset
import Mathlib.Logic.Equiv.Fin.Basic

namespace LinAttn

/-- Row `r` of tile `j` is row `512 j + r` of the slab. -/
def row (j : Fin 4) (r : Fin 512) : Fin 2048 := ⟨512 * j.val + r.val, by have := j.isLt; have := r.isLt; omega⟩

@[simp] theorem row_val (j : Fin 4) (r : Fin 512) : (row j r).val = 512 * j.val + r.val := rfl

section defs
variable {R : Type} [AddCommMonoid R] [Mul R]

/-- A projection `X Wᵀ`: row `n` of `X` against row `k` of `W` (weights are stored `[out, in]`). -/
def proj {K : ℕ} (X : Fin 2048 → Fin 1024 → R) (W : Fin K → Fin 1024 → R) (n : Fin 2048) (k : Fin K) : R :=
  ∑ d : Fin 1024, X n d * W k d

/-- The scores `Q Kᵀ`. -/
def scores (Q K : Fin 2048 → Fin 64 → R) (n m : Fin 2048) : R := ∑ k : Fin 64, Q n k * K m k

/-- `(Q Kᵀ) V`. -/
def attnRef (Q K : Fin 2048 → Fin 64 → R) (V : Fin 2048 → Fin 1024 → R) (n : Fin 2048) (e : Fin 1024) : R :=
  ∑ m : Fin 2048, scores Q K n m * V m e

/-- One tile's contribution `K_jᵀ V_j` to `Kᵀ V`. -/
def kvTile (K : Fin 2048 → Fin 64 → R) (V : Fin 2048 → Fin 1024 → R) (j : Fin 4) (k : Fin 64) (e : Fin 1024) : R :=
  ∑ r : Fin 512, K (row j r) k * V (row j r) e

/-- `Kᵀ V` as the kernel accumulates it, from zero, tile after tile. -/
def kvAcc (K : Fin 2048 → Fin 64 → R) (V : Fin 2048 → Fin 1024 → R) (k : Fin 64) (e : Fin 1024) : R :=
  (((0 + kvTile K V 0 k e) + kvTile K V 1 k e) + kvTile K V 2 k e) + kvTile K V 3 k e

/-- `Q (Kᵀ V)` with the accumulated `Kᵀ V`. -/
def attnTile (Q K : Fin 2048 → Fin 64 → R) (V : Fin 2048 → Fin 1024 → R) (n : Fin 2048) (e : Fin 1024) : R :=
  ∑ k : Fin 64, Q n k * kvAcc K V k e

/-- The feed-forward tail `((X + A) W1ᵀ) W2ᵀ` of a given attention term `A`. -/
def tail (X A : Fin 2048 → Fin 1024 → R) (W1 : Fin 64 → Fin 1024 → R) (W2 : Fin 1024 → Fin 64 → R)
    (n : Fin 2048) (d : Fin 1024) : R :=
  ∑ k : Fin 64, (∑ e : Fin 1024, (X n e + A n e) * W1 k e) * W2 d k

/-- The reference: scores first. -/
def refOut (X : Fin 2048 → Fin 1024 → R) (Wq Wk : Fin 64 → Fin 1024 → R) (Wv : Fin 1024 → Fin 1024 → R)
    (W1 : Fin 64 → Fin 1024 → R) (W2 : Fin 1024 → Fin 64 → R) : Fin 2048 → Fin 1024 → R :=
  tail X (attnRef (proj X Wq) (proj X Wk) (proj X Wv)) W1 W2

/-- The tiled computation: `Kᵀ V` first, accumulated over the four tiles. -/
def tileOut (X : Fin 2048 → Fin 1024 → R) (Wq Wk : Fin 64 → Fin 1024 → R) (Wv : Fin 1024 → Fin 1024 → R)
    (W1 : Fin 64 → Fin 1024 → R) (W2 : Fin 1024 → Fin 64 → R) : Fin 2048 → Fin 1024 → R :=
  tail X (attnTile (proj X Wq) (proj X Wk) (proj X Wv)) W1 W2

end defs

/-! ## The law, over a commutative semiring -/

section law
variable {R : Type} [CommSemiring R]

/-- A sum over the 2048 rows is the sum over the four tiles of the sums over each tile's 512 rows. -/
theorem sum_rows (f : Fin 2048 → R) : ∑ m : Fin 2048, f m = ∑ j : Fin 4, ∑ r : Fin 512, f (row j r) := by
  have e : ∀ p : Fin 4 × Fin 512, (finProdFinEquiv p : Fin (4 * 512)) = row p.1 p.2 := fun p =>
    Fin.ext (by rw [finProdFinEquiv_apply_val]; show _ = 512 * p.1.val + p.2.val; omega)
  rw [← Equiv.sum_comp (finProdFinEquiv : Fin 4 × Fin 512 ≃ Fin (4 * 512)) f, Fintype.sum_prod_type]
  exact Finset.sum_congr rfl fun j _ => Finset.sum_congr rfl fun r _ => congrArg f (e (j, r))

/-- The accumulated `Kᵀ V` is the full sum over the rows. -/
theorem kvAcc_eq (K : Fin 2048 → Fin 64 → R) (V : Fin 2048 → Fin 1024 → R) (k : Fin 64) (e : Fin 1024) :
    kvAcc K V k e = ∑ m : Fin 2048, K m k * V m e := by
  rw [sum_rows, Fin.sum_univ_four]
  simp only [kvAcc, kvTile, zero_add]

/-- `(Q Kᵀ) V = Q (Kᵀ V)`. -/
theorem attnTile_eq (Q K : Fin 2048 → Fin 64 → R) (V : Fin 2048 → Fin 1024 → R) :
    attnTile Q K V = attnRef Q K V := by
  funext n e
  simp only [attnTile, attnRef, scores, kvAcc_eq, Finset.mul_sum, Finset.sum_mul]
  rw [Finset.sum_comm]
  exact Finset.sum_congr rfl fun m _ => Finset.sum_congr rfl fun k _ => (mul_assoc _ _ _).symm

theorem tileOut_eq (X : Fin 2048 → Fin 1024 → R) (Wq Wk : Fin 64 → Fin 1024 → R) (Wv : Fin 1024 → Fin 1024 → R)
    (W1 : Fin 64 → Fin 1024 → R) (W2 : Fin 1024 → Fin 64 → R) :
    tileOut X Wq Wk Wv W1 W2 = refOut X Wq Wk Wv W1 W2 := by
  unfold tileOut refOut
  rw [attnTile_eq]

end law

/-! ## From the reals to the extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Both computations commute with the coercion of the reals into the extended reals. -/
theorem refOut_coe (X : Fin 2048 → Fin 1024 → ℝ) (Wq Wk : Fin 64 → Fin 1024 → ℝ) (Wv : Fin 1024 → Fin 1024 → ℝ)
    (W1 : Fin 64 → Fin 1024 → ℝ) (W2 : Fin 1024 → Fin 64 → ℝ) (n : Fin 2048) (d : Fin 1024) :
    refOut (fun a b => (X a b : EReal)) (fun a b => (Wq a b : EReal)) (fun a b => (Wk a b : EReal))
      (fun a b => (Wv a b : EReal)) (fun a b => (W1 a b : EReal)) (fun a b => (W2 a b : EReal)) n d
    = ((refOut X Wq Wk Wv W1 W2 n d : ℝ) : EReal) := by
  simp only [refOut, tail, attnRef, scores, proj, coe_sum, EReal.coe_mul, EReal.coe_add]

theorem tileOut_coe (X : Fin 2048 → Fin 1024 → ℝ) (Wq Wk : Fin 64 → Fin 1024 → ℝ) (Wv : Fin 1024 → Fin 1024 → ℝ)
    (W1 : Fin 64 → Fin 1024 → ℝ) (W2 : Fin 1024 → Fin 64 → ℝ) (n : Fin 2048) (d : Fin 1024) :
    tileOut (fun a b => (X a b : EReal)) (fun a b => (Wq a b : EReal)) (fun a b => (Wk a b : EReal))
      (fun a b => (Wv a b : EReal)) (fun a b => (W1 a b : EReal)) (fun a b => (W2 a b : EReal)) n d
    = ((tileOut X Wq Wk Wv W1 W2 n d : ℝ) : EReal) := by
  simp only [tileOut, tail, attnTile, kvAcc, kvTile, proj, coe_sum, EReal.coe_mul, EReal.coe_add, EReal.coe_zero]

/-- On extended reals that are real numbers the tiled computation is the reference. -/
theorem tileOut_eq_refOut_of_real (X : Fin 2048 → Fin 1024 → EReal) (Wq Wk : Fin 64 → Fin 1024 → EReal)
    (Wv : Fin 1024 → Fin 1024 → EReal) (W1 : Fin 64 → Fin 1024 → EReal) (W2 : Fin 1024 → Fin 64 → EReal)
    (hX : ∀ a b, ∃ r : ℝ, X a b = r) (hq : ∀ a b, ∃ r : ℝ, Wq a b = r) (hk : ∀ a b, ∃ r : ℝ, Wk a b = r)
    (hv : ∀ a b, ∃ r : ℝ, Wv a b = r) (h1 : ∀ a b, ∃ r : ℝ, W1 a b = r) (h2 : ∀ a b, ∃ r : ℝ, W2 a b = r) :
    tileOut X Wq Wk Wv W1 W2 = refOut X Wq Wk Wv W1 W2 := by
  choose x hx using hX
  choose wq hwq using hq
  choose wk hwk using hk
  choose wv hwv using hv
  choose w1 hw1 using h1
  choose w2 hw2 using h2
  obtain rfl : X = fun a b => (x a b : EReal) := funext fun a => funext fun b => hx a b
  obtain rfl : Wq = fun a b => (wq a b : EReal) := funext fun a => funext fun b => hwq a b
  obtain rfl : Wk = fun a b => (wk a b : EReal) := funext fun a => funext fun b => hwk a b
  obtain rfl : Wv = fun a b => (wv a b : EReal) := funext fun a => funext fun b => hwv a b
  obtain rfl : W1 = fun a b => (w1 a b : EReal) := funext fun a => funext fun b => hw1 a b
  obtain rfl : W2 = fun a b => (w2 a b : EReal) := funext fun a => funext fun b => hw2 a b
  funext n d
  rw [tileOut_coe, refOut_coe, tileOut_eq]

end LinAttn
-- ==== Proof.BodyWords.lean ====
/-
  What the body's two scratch buffers hold when they are read back, at the exact instance, in terms of the blocks the
  body was started on.  Write X for the slab of 2048 rows, Wq, Wk, Wv for the three projection weights (read through
  their transposes, as the kernel receives them).

    * The 64 × 1024 accumulator is zeroed and then overwritten whole four times, once per tile; a load after the j-th
      overwrite reads that overwrite's value, so the loads read 0, 0 + P₀, (0 + P₀) + P₁, … and finally the whole
      accumulated Kᵀ V, with P_j = K_jᵀ V_j, K = X Wkᵀ, V = X Wvᵀ.
    * The 2048 × 64 buffer receives the four tiles of Q = X Wqᵀ in four disjoint row ranges; a load of tile j's rows
      reads the value stored there, the later stores to other row ranges leaving it alone.
-/
import proofs.«129097_j8014408974649_2_alg».proof.Proof.Gen.KernelIdeal.Frame
import proofs.«129097_j8014408974649_2_alg».proof.Proof.TileRead
import proofs.«129097_j8014408974649_2_alg».proof.Proof.Attention
import Idealize.ShloMosaic.Lib.Pipeline.Value

set_option maxRecDepth 16384

noncomputable section

namespace Cert.KernelIdeal.BodyValue

open Cert.KernelIdeal Cert.KernelIdeal.Gen Cert.KernelIdeal.TileRead Idealize.ShloMosaic Idealize.ShloMosaic.ValueIdx LinAttn

/-! ## The blocks as matrices -/

/-- The slab's rows. -/
def rowsOf (x0 : FVec Ideal S1x2048x1024 .f32) : Fin 2048 → Fin 1024 → EReal := fun n d => x0 (ix3 (0 : Fin 1) n d)
/-- A [1024, 64] block read as the 64 × 1024 matrix it is the transpose of. -/
def colsOf64 {φ : FTy} (w : FVec Ideal S1024x64 φ) : Fin 64 → Fin 1024 → EReal := fun k d => w (ix2 d k)
/-- A [1024, 1024] block read through its transpose. -/
def colsOf1024 {φ : FTy} (w : FVec Ideal S1024x1024 φ) : Fin 1024 → Fin 1024 → EReal := fun e d => w (ix2 d e)
/-- A [64, 1024] block read through its transpose. -/
def rowsOf64 {φ : FTy} (w : FVec Ideal S64x1024 φ) : Fin 1024 → Fin 64 → EReal := fun d k => w (ix2 k d)

theorem hz2 : (![0, 0] : Fin 2 → Nat) = fun _ => 0 := funext fun a => by fin_cases a <;> rfl

/-- Row r of the tile loaded at row offset 512 j is row 512 j + r of the slab. -/
theorem tile_apply (x0 : FVec Ideal S1x2048x1024 .f32) (off : Fin 3 → ℕ)
    (inb : ∀ a, off a + S1x512x1024.size a ≤ S1x2048x1024.size a)
    (j : Fin 4) (h0 : off 0 = 0) (h1 : off 1 = 512 * j.val) (h2 : off 2 = 0) (r : Fin 512) (d : Fin 1024) :
    View.ld (Val := Elt Ideal) (e' := EltTy.f32) x0 (Rect.unit (s := S1x2048x1024) off S1x512x1024.size inb) (ix3 (0 : Fin 1) r d)
      = x0 (ix3 (0 : Fin 1) (row j r) d) := by
  show x0 _ = x0 _
  refine congrArg x0 (funext fun a => Fin.ext ?_)
  match a with
  | ⟨0, _⟩ => show off 0 + 1 * 0 = 0; omega
  | ⟨1, _⟩ => show off 1 + 1 * r.val = 512 * j.val + r.val; omega
  | ⟨2, _⟩ => show off 2 + 1 * d.val = d.val; omega

/-- One accumulation step on the tile loaded at row offset 512 j adds tile j's K_jᵀ V_j. -/
theorem kvStep_tile (x0 : FVec Ideal S1x2048x1024 .f32) (x2 : FVec Ideal S1024x64 .bf16) (x3 : FVec Ideal S1024x1024 .bf16)
    (acc : FVec Ideal S64x1024 .f32) (off : Fin 3 → ℕ) (inb : ∀ a, off a + S1x512x1024.size a ≤ S1x2048x1024.size a)
    (j : Fin 4) (h0 : off 0 = 0) (h1 : off 1 = 512 * j.val) (h2 : off 2 = 0) (k : Fin 64) (e : Fin 1024) :
    k0_pay6 (F := Ideal) (View.ld (Val := Elt Ideal) (e' := EltTy.f32) x0 (Rect.unit (s := S1x2048x1024) off S1x512x1024.size inb)) x2 x3 acc (ix2 k e)
      = acc (ix2 k e) + kvTile (proj (rowsOf x0) (colsOf64 x2)) (proj (rowsOf x0) (colsOf1024 x3)) j k e := by
  refine (kvStep_apply _ x2 x3 acc k e).trans (congrArg (acc (ix2 k e) + ·) ?_)
  simp only [kvTile, proj, rowsOf, colsOf64, colsOf1024]
  refine Finset.sum_congr rfl fun r _ => ?_
  refine congrArg₂ (· * ·) (Finset.sum_congr rfl fun d _ => ?_) (Finset.sum_congr rfl fun d _ => ?_)
  · rw [tile_apply x0 off inb j h0 h1 h2 r d]
  · rw [tile_apply x0 off inb j h0 h1 h2 r d]

/-- The projection tile computed from the tile loaded at row offset 512 j is rows 512 j … of Q. -/
theorem proj_tile (x0 : FVec Ideal S1x2048x1024 .f32) (x1 : FVec Ideal S1024x64 .bf16)
    (off : Fin 3 → ℕ) (inb : ∀ a, off a + S1x512x1024.size a ≤ S1x2048x1024.size a)
    (j : Fin 4) (h0 : off 0 = 0) (h1 : off 1 = 512 * j.val) (h2 : off 2 = 0) (r : Fin 512) (k : Fin 64) :
    k0_pay5 (F := Ideal) (View.ld (Val := Elt Ideal) (e' := EltTy.f32) x0 (Rect.unit (s := S1x2048x1024) off S1x512x1024.size inb)) x1 (ix2 r k)
      = proj (rowsOf x0) (colsOf64 x1) (row j r) k := by
  refine (proj_apply _ x1 r k).trans ?_
  simp only [proj, rowsOf, colsOf64]
  exact Finset.sum_congr rfl fun d _ => by rw [tile_apply x0 off inb j h0 h1 h2 r d]

section words
variable (c : Dev nD) (arg1 : Memref sig .tc .vmem S1x2048x1024 .f32) (harg1 : arg1.IsWhole) (arg2 : Memref sig .tc .vmem S1024x64 .bf16) (harg2 : arg2.IsWhole) (arg3 : Memref sig .tc .vmem S1024x64 .bf16) (harg3 : arg3.IsWhole) (arg4 : Memref sig .tc .vmem S1024x1024 .bf16) (harg4 : arg4.IsWhole) (arg5 : Memref sig .tc .vmem S1024x64 .f32) (harg5 : arg5.IsWhole) (arg6 : Memref sig .tc .vmem S64x1024 .f32) (harg6 : arg6.IsWhole) (arg7 : Memref sig .tc .vmem S1x2048x1024 .f32) (harg7 : arg7.IsWhole) (arg8 : Memref sig .tc .vmem S64x1024 .f32) (harg8 : arg8.IsWhole) (arg9 : Memref sig .tc .vmem S2048x64 .f32) (harg9 : arg9.IsWhole)
    (x0 : FVec Ideal S1x2048x1024 .f32) (x1 : FVec Ideal S1024x64 .bf16) (x2 : FVec Ideal S1024x64 .bf16) (x3 : FVec Ideal S1024x1024 .bf16) (x4 : FVec Ideal S1024x64 .f32) (x5 : FVec Ideal S64x1024 .f32)

/-! ## The accumulator, load by load -/

theorem acc0_apply (k : Fin 64) (e : Fin 1024) : kernelRun0_A.sl.v26 (F := Ideal) c arg8 (ix2 k e) = 0 := by
  unfold kernelRun0_A.sl.v26 kernelRun0_A.sl.HS0_1
  rw [View.readCov_cons_toLoadRect]
  exact zero_apply k e

theorem acc1_apply (k : Fin 64) (e : Fin 1024) :
    kernelRun0_A.sl.v53 (F := Ideal) c arg1 harg1 arg3 harg3 arg4 harg4 arg8 x0 x2 x3 (ix2 k e)
      = 0 + kvTile (proj (rowsOf x0) (colsOf64 x2)) (proj (rowsOf x0) (colsOf1024 x3)) 0 k e := by
  unfold kernelRun0_A.sl.v53 kernelRun0_A.sl.HS0_2
  rw [View.readCov_cons_toLoadRect]
  simp only [View.readAt_eq_ld, harg1.read_unread, harg3.read_unread, harg4.read_unread, View.ld_unit_zero (S := S1024x64) hz2, View.ld_unit_zero (S := S1024x1024) hz2]
  refine (kvStep_tile x0 x2 x3 _ _ _ 0 rfl rfl rfl k e).trans ?_
  rw [acc0_apply]

theorem acc2_apply (k : Fin 64) (e : Fin 1024) :
    kernelRun0_A.sl.v80 (F := Ideal) c arg1 harg1 arg3 harg3 arg4 harg4 arg8 x0 x2 x3 (ix2 k e)
      = (0 + kvTile (proj (rowsOf x0) (colsOf64 x2)) (proj (rowsOf x0) (colsOf1024 x3)) 0 k e)
          + kvTile (proj (rowsOf x0) (colsOf64 x2)) (proj (rowsOf x0) (colsOf1024 x3)) 1 k e := by
  unfold kernelRun0_A.sl.v80 kernelRun0_A.sl.HS0_3
  rw [View.readCov_cons_toLoadRect]
  simp only [View.readAt_eq_ld, harg1.read_unread, harg3.read_unread, harg4.read_unread, View.ld_unit_zero (S := S1024x64) hz2, View.ld_unit_zero (S := S1024x1024) hz2]
  rw [pay9_eq]
  refine (kvStep_tile x0 x2 x3 _ _ _ 1 rfl rfl rfl k e).trans ?_
  rw [acc1_apply]

theorem acc3_apply (k : Fin 64) (e : Fin 1024) :
    kernelRun0_A.sl.v107 (F := Ideal) c arg1 harg1 arg3 harg3 arg4 harg4 arg8 x0 x2 x3 (ix2 k e)
      = ((0 + kvTile (proj (rowsOf x0) (colsOf64 x2)) (proj (rowsOf x0) (colsOf1024 x3)) 0 k e)
          + kvTile (proj (rowsOf x0) (colsOf64 x2)) (proj (rowsOf x0) (colsOf1024 x3)) 1 k e)
          + kvTile (proj (rowsOf x0) (colsOf64 x2)) (proj (rowsOf x0) (colsOf1024 x3)) 2 k e := by
  unfold kernelRun0_A.sl.v107 kernelRun0_A.sl.HS0_4 kernelRun0_A.sl.r
  rw [View.readCov_cons_toLoadRect]
  simp only [View.readAt_eq_ld, harg1.read_unread, harg3.read_unread, harg4.read_unread, View.ld_unit_zero (S := S1024x64) hz2, View.ld_unit_zero (S := S1024x1024) hz2]
  rw [pay13_eq]
  refine (kvStep_tile x0 x2 x3 _ _ _ 2 rfl rfl rfl k e).trans ?_
  rw [acc2_apply]

/-- The last load reads the whole accumulated Kᵀ V. -/
theorem acc4_apply (k : Fin 64) (e : Fin 1024) :
    kernelRun0_A.sl.v112 (F := Ideal) c arg1 harg1 arg3 harg3 arg4 harg4 arg8 x0 x2 x3 (ix2 k e)
      = kvAcc (proj (rowsOf x0) (colsOf64 x2)) (proj (rowsOf x0) (colsOf1024 x3)) k e := by
  unfold kernelRun0_A.sl.v112 kernelRun0_A.sl.HS0_5 kernelRun0_A.sl.r_2 kernelRun0_A.sl.r_3
  rw [View.readCov_cons_toLoadRect]
  simp only [View.readAt_eq_ld, harg1.read_unread, harg3.read_unread, harg4.read_unread, View.ld_unit_zero (S := S1024x64) hz2, View.ld_unit_zero (S := S1024x1024) hz2]
  rw [pay17_eq]
  refine (kvStep_tile x0 x2 x3 _ _ _ 3 rfl rfl rfl k e).trans ?_
  rw [acc3_apply]
  rfl

end words

/-! ## The stored tiles of Q, read back -/

/-- Q = X Wqᵀ as a function of the 2048 × 64 buffer's index. -/
def qOf (x0 : FVec Ideal S1x2048x1024 .f32) (x1 : FVec Ideal S1024x64 .bf16) : FVec Ideal S2048x64 .f32 :=
  fun y => proj (rowsOf x0) (colsOf64 x1) (y 0) (y 1)

/-- A value stored in rows 512 j … of the buffer that is tile j of Q is Q there. -/
theorem qPiece (x0 : FVec Ideal S1x2048x1024 .f32) (x1 : FVec Ideal S1024x64 .bf16)
    (off : Fin 2 → ℕ) (inb : ∀ a, off a + S512x64.size a ≤ S2048x64.size a) (j : Fin 4) (h0 : off 0 = 512 * j.val) (h1 : off 1 = 0)
    (w : FVec Ideal S512x64 .f32) (hw : ∀ r k, w (ix2 r k) = proj (rowsOf x0) (colsOf64 x1) (row j r) k) (x : S512x64.Idx) :
    w x = qOf x0 x1 ((Rect.unit (s := S2048x64) off S512x64.size inb).emb x) := by
  obtain ⟨r, k, rfl⟩ : ∃ (r : Fin 512) (k : Fin 64), x = ix2 r k := ⟨x 0, x 1, eq_ix2 x⟩
  rw [hw]
  unfold qOf
  refine congrArg₂ (proj (rowsOf x0) (colsOf64 x1)) (Fin.ext ?_) (Fin.ext ?_)
  · show 512 * j.val + r.val = off 0 + 1 * r.val; omega
  · show k.val = off 1 + 1 * k.val; omega

/-- A load of rows 512 j … of a buffer holding Q reads tile j of Q. -/
theorem qLoad (x0 : FVec Ideal S1x2048x1024 .f32) (x1 : FVec Ideal S1024x64 .bf16)
    (off : Fin 2 → ℕ) (inb : ∀ a, off a + S512x64.size a ≤ S2048x64.size a) (j : Fin 4) (h0 : off 0 = 512 * j.val) (h1 : off 1 = 0)
    (r : Fin 512) (k : Fin 64) :
    qOf x0 x1 ((Rect.unit (s := S2048x64) off S512x64.size inb).toLoadRect.idx (ix2 r k)) = proj (rowsOf x0) (colsOf64 x1) (row j r) k := by
  unfold qOf
  refine congrArg₂ (proj (rowsOf x0) (colsOf64 x1)) (Fin.ext ?_) (Fin.ext ?_)
  · show off 0 + 1 * r.val = 512 * j.val + r.val; omega
  · show off 1 + 1 * k.val = k.val; omega

section qwords
variable (c : Dev nD) (arg1 : Memref sig .tc .vmem S1x2048x1024 .f32) (harg1 : arg1.IsWhole) (arg2 : Memref sig .tc .vmem S1024x64 .bf16) (harg2 : arg2.IsWhole) (arg3 : Memref sig .tc .vmem S1024x64 .bf16) (harg3 : arg3.IsWhole) (arg4 : Memref sig .tc .vmem S1024x1024 .bf16) (harg4 : arg4.IsWhole) (arg5 : Memref sig .tc .vmem S1024x64 .f32) (harg5 : arg5.IsWhole) (arg6 : Memref sig .tc .vmem S64x1024 .f32) (harg6 : arg6.IsWhole) (arg7 : Memref sig .tc .vmem S1x2048x1024 .f32) (harg7 : arg7.IsWhole) (arg8 : Memref sig .tc .vmem S64x1024 .f32) (harg8 : arg8.IsWhole) (arg9 : Memref sig .tc .vmem S2048x64 .f32) (harg9 : arg9.IsWhole)
    (x0 : FVec Ideal S1x2048x1024 .f32) (x1 : FVec Ideal S1024x64 .bf16) (x2 : FVec Ideal S1024x64 .bf16) (x3 : FVec Ideal S1024x1024 .bf16) (x4 : FVec Ideal S1024x64 .f32) (x5 : FVec Ideal S64x1024 .f32)

/-- Every store to the 2048 × 64 buffer stored a tile of Q in that tile's rows. -/
theorem qPieces : ∀ p ∈ kernelRun0_A.sl.HS1_4 (F := Ideal) c arg1 harg1 arg2 harg2 x0 x1, ∀ x : p.1.shape.Idx, p.2 x = qOf x0 x1 (p.1.emb x) := by
  intro p hp
  unfold kernelRun0_A.sl.HS1_4 kernelRun0_A.sl.r_4 kernelRun0_A.sl.r kernelRun0_A.sl.r_1 kernelRun0_A.sl.cst_41 at hp
  simp only [List.mem_cons, List.not_mem_nil, or_false] at hp
  rcases hp with rfl | rfl | rfl | rfl
  · dsimp only
    intro x
    refine qPiece x0 x1 _ _ 3 rfl rfl _ (fun r k => ?_) x
    simp only [View.readAt_eq_ld, harg1.read_unread, harg2.read_unread, View.ld_unit_zero (S := S1024x64) hz2]
    rw [pay16_eq]
    exact proj_tile x0 x1 _ _ 3 rfl rfl rfl r k
  · dsimp only
    intro x
    refine qPiece x0 x1 _ _ 2 rfl rfl _ (fun r k => ?_) x
    simp only [View.readAt_eq_ld, harg1.read_unread, harg2.read_unread, View.ld_unit_zero (S := S1024x64) hz2]
    rw [pay12_eq]
    exact proj_tile x0 x1 _ _ 2 rfl rfl rfl r k
  · dsimp only
    intro x
    refine qPiece x0 x1 _ _ 1 rfl rfl _ (fun r k => ?_) x
    simp only [View.readAt_eq_ld, harg1.read_unread, harg2.read_unread, View.ld_unit_zero (S := S1024x64) hz2]
    rw [pay8_eq]
    exact proj_tile x0 x1 _ _ 1 rfl rfl rfl r k
  · dsimp only
    intro x
    refine qPiece x0 x1 _ _ 0 rfl rfl _ (fun r k => ?_) x
    simp only [View.readAt_eq_ld, harg1.read_unread, harg2.read_unread, View.ld_unit_zero (S := S1024x64) hz2]
    exact proj_tile x0 x1 _ _ 0 rfl rfl rfl r k

theorem q3_apply (r : Fin 512) (k : Fin 64) :
    kernelRun0_A.sl.v180 (F := Ideal) c arg1 harg1 arg2 harg2 arg9 x0 x1 (ix2 r k) = proj (rowsOf x0) (colsOf64 x1) (row 3 r) k := by
  unfold kernelRun0_A.sl.v180
  rw [View.readCov_eq_canon']
  refine (View.canon_apply_of_pieces (qOf x0 x1) _ (qPieces c arg1 harg1 arg2 harg2 x0 x1) _ ?_).trans (qLoad x0 x1 _ _ 3 rfl rfl r k)
  unfold kernelRun0_A.sl.HS1_4
  exact ⟨_, List.mem_cons_self, LoadRect.idx_mem _ _⟩

theorem q2_apply (r : Fin 512) (k : Fin 64) :
    kernelRun0_A.sl.v160 (F := Ideal) c arg1 harg1 arg2 harg2 arg9 x0 x1 (ix2 r k) = proj (rowsOf x0) (colsOf64 x1) (row 2 r) k := by
  unfold kernelRun0_A.sl.v160
  rw [View.readCov_eq_canon']
  refine (View.canon_apply_of_pieces (qOf x0 x1) _ (qPieces c arg1 harg1 arg2 harg2 x0 x1) _ ?_).trans (qLoad x0 x1 _ _ 2 rfl rfl r k)
  unfold kernelRun0_A.sl.HS1_4
  exact ⟨_, List.mem_cons_of_mem _ List.mem_cons_self, LoadRect.idx_mem _ _⟩

theorem q1_apply (r : Fin 512) (k : Fin 64) :
    kernelRun0_A.sl.v140 (F := Ideal) c arg1 harg1 arg2 harg2 arg9 x0 x1 (ix2 r k) = proj (rowsOf x0) (colsOf64 x1) (row 1 r) k := by
  unfold kernelRun0_A.sl.v140
  rw [View.readCov_eq_canon']
  refine (View.canon_apply_of_pieces (qOf x0 x1) _ (qPieces c arg1 harg1 arg2 harg2 x0 x1) _ ?_).trans (qLoad x0 x1 _ _ 1 rfl rfl r k)
  unfold kernelRun0_A.sl.HS1_4
  exact ⟨_, List.mem_cons_of_mem _ (List.mem_cons_of_mem _ List.mem_cons_self), LoadRect.idx_mem _ _⟩

theorem q0_apply (r : Fin 512) (k : Fin 64) :
    kernelRun0_A.sl.v120 (F := Ideal) c arg1 harg1 arg2 harg2 arg9 x0 x1 (ix2 r k) = proj (rowsOf x0) (colsOf64 x1) (row 0 r) k := by
  unfold kernelRun0_A.sl.v120
  rw [View.readCov_eq_canon']
  refine (View.canon_apply_of_pieces (qOf x0 x1) _ (qPieces c arg1 harg1 arg2 harg2 x0 x1) _ ?_).trans (qLoad x0 x1 _ _ 0 rfl rfl r k)
  unfold kernelRun0_A.sl.HS1_4
  exact ⟨_, List.mem_cons_of_mem _ (List.mem_cons_of_mem _ (List.mem_cons_of_mem _ List.mem_cons_self)), LoadRect.idx_mem _ _⟩

end qwords

end Cert.KernelIdeal.BodyValue

end
-- ==== Proof.BodyValue.lean ====
/-
  What one run of the kernel body leaves in the output block, at the exact instance: the four stored tiles together are
  ONE function of the block index — entry (0, n, d) is the tiled attention-plus-feed-forward output of the slab at row n
  and column d.  Each stored tile is ((X_j + Q_j (Kᵀ V)) W1ᵀ) W2ᵀ with Q_j read back from the 2048 × 64 buffer and
  Kᵀ V from the accumulator after its last overwrite; the four tiles' rectangles cover the block.
-/
import proofs.«129097_j8014408974649_2_alg».proof.Proof.BodyWords

set_option maxRecDepth 16384

noncomputable section

namespace Cert.KernelIdeal.BodyValue

open Cert.KernelIdeal Cert.KernelIdeal.Gen Cert.KernelIdeal.TileRead Idealize.ShloMosaic Idealize.ShloMosaic.ValueIdx LinAttn

/-- The output block as a function of the six input blocks. -/
def bodyOut (x0 : FVec Ideal S1x2048x1024 .f32) (x1 x2 : FVec Ideal S1024x64 .bf16) (x3 : FVec Ideal S1024x1024 .bf16)
    (x4 : FVec Ideal S1024x64 .f32) (x5 : FVec Ideal S64x1024 .f32) : FVec Ideal S1x2048x1024 .f32 :=
  fun y => tileOut (rowsOf x0) (colsOf64 x1) (colsOf64 x2) (colsOf1024 x3) (colsOf64 x4) (rowsOf64 x5) (y 1) (y 2)

/-- An output tile computed from the tile loaded at row offset 512 j, from tile j of Q and from the whole Kᵀ V, is the
    block's function on that tile's rectangle. -/
theorem outTile_value (x0 : FVec Ideal S1x2048x1024 .f32) (x1 x2 : FVec Ideal S1024x64 .bf16) (x3 : FVec Ideal S1024x1024 .bf16)
    (x4 : FVec Ideal S1024x64 .f32) (x5 : FVec Ideal S64x1024 .f32)
    (kv : FVec Ideal S64x1024 .f32) (qt : FVec Ideal S512x64 .f32)
    (off : Fin 3 → ℕ) (inb : ∀ a, off a + S1x512x1024.size a ≤ S1x2048x1024.size a)
    (j : Fin 4) (h0 : off 0 = 0) (h1 : off 1 = 512 * j.val) (h2 : off 2 = 0)
    (hkv : ∀ k e, kv (ix2 k e) = kvAcc (proj (rowsOf x0) (colsOf64 x2)) (proj (rowsOf x0) (colsOf1024 x3)) k e)
    (hq : ∀ r k, qt (ix2 r k) = proj (rowsOf x0) (colsOf64 x1) (row j r) k)
    (x : S1x512x1024.Idx) :
    k0_pay19 (F := Ideal) kv (View.ld (Val := Elt Ideal) (e' := EltTy.f32) x0 (Rect.unit (s := S1x2048x1024) off S1x512x1024.size inb)) qt x4 x5 x
      = bodyOut x0 x1 x2 x3 x4 x5 ((Rect.unit (s := S1x2048x1024) off S1x512x1024.size inb).emb x) := by
  obtain ⟨u, r, d, rfl⟩ : ∃ (u : Fin 1) (r : Fin 512) (d : Fin 1024), x = ix3 u r d := ⟨x 0, x 1, x 2, eq_ix3 x⟩
  refine (out_apply kv _ qt x4 x5 u r d).trans ?_
  have e1 : (Rect.unit (s := S1x2048x1024) off S1x512x1024.size inb).emb (ix3 u r d) 1 = row j r :=
    Fin.ext (by show off 1 + 1 * r.val = 512 * j.val + r.val; omega)
  have e2 : (Rect.unit (s := S1x2048x1024) off S1x512x1024.size inb).emb (ix3 u r d) 2 = d :=
    Fin.ext (by show off 2 + 1 * d.val = d.val; omega)
  unfold bodyOut
  rw [e1, e2]
  simp only [tileOut, tail, attnTile]
  refine Finset.sum_congr rfl fun k _ => congrArg₂ (· * ·) (Finset.sum_congr rfl fun e _ => congrArg₂ (· * ·) (congrArg₂ (· + ·) ?_ ?_) rfl) rfl
  · exact tile_apply x0 off inb j h0 h1 h2 r e
  · exact Finset.sum_congr rfl fun k' _ => congrArg₂ (· * ·) (hq r k') (hkv k' e)

section pieces
variable (i : grid0.Coords) (c : Dev nD) (arg1 : Memref sig .tc .vmem S1x2048x1024 .f32) (harg1 : arg1.IsWhole) (arg2 : Memref sig .tc .vmem S1024x64 .bf16) (harg2 : arg2.IsWhole) (arg3 : Memref sig .tc .vmem S1024x64 .bf16) (harg3 : arg3.IsWhole) (arg4 : Memref sig .tc .vmem S1024x1024 .bf16) (harg4 : arg4.IsWhole) (arg5 : Memref sig .tc .vmem S1024x64 .f32) (harg5 : arg5.IsWhole) (arg6 : Memref sig .tc .vmem S64x1024 .f32) (harg6 : arg6.IsWhole) (arg7 : Memref sig .tc .vmem S1x2048x1024 .f32) (harg7 : arg7.IsWhole) (arg8 : Memref sig .tc .vmem S64x1024 .f32) (harg8 : arg8.IsWhole) (arg9 : Memref sig .tc .vmem S2048x64 .f32) (harg9 : arg9.IsWhole)
    (x0 : FVec Ideal S1x2048x1024 .f32) (x1 : FVec Ideal S1024x64 .bf16) (x2 : FVec Ideal S1024x64 .bf16) (x3 : FVec Ideal S1024x1024 .bf16) (x4 : FVec Ideal S1024x64 .f32) (x5 : FVec Ideal S64x1024 .f32)

/-- The body's four stores to the output block each store the block's function on their rectangle. -/
theorem outPieces : ∀ p ∈ (kernelRun0_A (F := Ideal) c i arg1 harg1 arg2 harg2 arg3 harg3 arg4 harg4 arg5 harg5 arg6 harg6 arg7 harg7 arg8 harg8 arg9 harg9 x0 x1 x2 x3 x4 x5).1,
    ∀ x : p.1.shape.Idx, p.2 x = bodyOut x0 x1 x2 x3 x4 x5 (p.1.emb x) := by
  intro p hp
  unfold kernelRun0_A at hp
  dsimp only at hp
  simp only [List.mem_cons, List.not_mem_nil, or_false] at hp
  rcases hp with rfl | rfl | rfl | rfl
  · dsimp only
    intro x
    unfold kernelRun0_A.sl.r_5
    simp only [View.readAt_eq_ld, harg1.read_unread, harg5.read_unread, harg6.read_unread, View.ld_unit_zero (S := S1024x64) hz2, View.ld_unit_zero (S := S64x1024) hz2]
    rw [pay2_eq]
    exact outTile_value x0 x1 x2 x3 x4 x5 _ _ _ _ 3 rfl rfl rfl (acc4_apply c arg1 harg1 arg3 harg3 arg4 harg4 arg8 x0 x2 x3)
      (q3_apply c arg1 harg1 arg2 harg2 arg9 x0 x1) x
  · dsimp only
    intro x
    unfold kernelRun0_A.sl.r_7 kernelRun0_A.sl.r_5
    simp only [View.readAt_eq_ld, harg1.read_unread, harg5.read_unread, harg6.read_unread, View.ld_unit_zero (S := S1024x64) hz2, View.ld_unit_zero (S := S64x1024) hz2]
    rw [pay1_eq]
    exact outTile_value x0 x1 x2 x3 x4 x5 _ _ _ _ 2 rfl rfl rfl (acc4_apply c arg1 harg1 arg3 harg3 arg4 harg4 arg8 x0 x2 x3)
      (q2_apply c arg1 harg1 arg2 harg2 arg9 x0 x1) x
  · dsimp only
    intro x
    unfold kernelRun0_A.sl.r_5
    simp only [View.readAt_eq_ld, harg1.read_unread, harg5.read_unread, harg6.read_unread, View.ld_unit_zero (S := S1024x64) hz2, View.ld_unit_zero (S := S64x1024) hz2]
    rw [pay20_eq]
    exact outTile_value x0 x1 x2 x3 x4 x5 _ _ _ _ 1 rfl rfl rfl (acc4_apply c arg1 harg1 arg3 harg3 arg4 harg4 arg8 x0 x2 x3)
      (q1_apply c arg1 harg1 arg2 harg2 arg9 x0 x1) x
  · dsimp only
    intro x
    unfold kernelRun0_A.sl.r_6
    simp only [View.readAt_eq_ld, harg1.read_unread, harg5.read_unread, harg6.read_unread, View.ld_unit_zero (S := S1024x64) hz2, View.ld_unit_zero (S := S64x1024) hz2]
    exact outTile_value x0 x1 x2 x3 x4 x5 _ _ _ _ 0 rfl rfl rfl (acc4_apply c arg1 harg1 arg3 harg3 arg4 harg4 arg8 x0 x2 x3)
      (q0_apply c arg1 harg1 arg2 harg2 arg9 x0 x1) x

/-- So the output block after the body is that function. -/
theorem out_eq : out0_A_6 (F := Ideal) c i arg1 harg1 arg2 harg2 arg3 harg3 arg4 harg4 arg5 harg5 arg6 harg6 arg7 harg7 arg8 harg8 arg9 harg9 x0 x1 x2 x3 x4 x5 = bodyOut x0 x1 x2 x3 x4 x5 := by
  unfold out0_A_6
  rw [View.read_writes_eq_canon _ _ _ (cover0_A_6 (F := Ideal) c i arg1 harg1 arg2 harg2 arg3 harg3 arg4 harg4 arg5 harg5 arg6 harg6 arg7 harg7 arg8 harg8 arg9 harg9 x0 x1 x2 x3 x4 x5)]
  funext y
  exact View.canon_apply_of_pieces (bodyOut x0 x1 x2 x3 x4 x5) _ (outPieces i c arg1 harg1 arg2 harg2 arg3 harg3 arg4 harg4 arg5 harg5 arg6 harg6 arg7 harg7 arg8 harg8 arg9 harg9 x0 x1 x2 x3 x4 x5) y (cover0_A_6 (F := Ideal) c i arg1 harg1 arg2 harg2 arg3 harg3 arg4 harg4 arg5 harg5 arg6 harg6 arg7 harg7 arg8 harg8 arg9 harg9 x0 x1 x2 x3 x4 x5 y)

end pieces

end Cert.KernelIdeal.BodyValue

end
-- ==== Proof.ArraySpec.lean ====
/-
  The result ARRAY f32[8, 2048, 1024] as one function of the six argument arrays, index by index: entry (b, n, d) is the
  attention-plus-feed-forward output of batch entry b — the slab x[b] with the weights Wq, Wk, Wv, W1, W2 as stored —
  at row n and column d.  Written twice, scores first (`refArr`) and tiled (`tileArr`); on arrays of real numbers the
  two are one array.
-/
import proofs.«129097_j8014408974649_2_alg».proof.Proof.Attention
import Idealize.ShloMosaic.Lib.ValueIdx

noncomputable section

namespace LinAttn

open Idealize.ShloMosaic Idealize.ShloMosaic.ValueIdx

/-- Batch entry `b` of the input, as a 2048 × 1024 matrix. -/
def batchRows (a0 : (⟨3, ![8, 2048, 1024]⟩ : Shape).Idx → EReal) (b : Fin 8) : Fin 2048 → Fin 1024 → EReal :=
  fun n d => a0 (ix3 b n d)

/-- A rank-two array as a matrix. -/
def mat {A B : ℕ} (a : (⟨2, ![A, B]⟩ : Shape).Idx → EReal) : Fin A → Fin B → EReal := fun p q => a (ix2 p q)

/-- The reference's result array. -/
def refArr (a0 : (⟨3, ![8, 2048, 1024]⟩ : Shape).Idx → EReal) (a1 a2 : (⟨2, ![64, 1024]⟩ : Shape).Idx → EReal)
    (a3 : (⟨2, ![1024, 1024]⟩ : Shape).Idx → EReal) (a4 : (⟨2, ![64, 1024]⟩ : Shape).Idx → EReal)
    (a5 : (⟨2, ![1024, 64]⟩ : Shape).Idx → EReal) : (⟨3, ![8, 2048, 1024]⟩ : Shape).Idx → EReal :=
  fun i => refOut (batchRows a0 (i 0)) (mat a1) (mat a2) (mat a3) (mat a4) (mat a5) (i 1) (i 2)

/-- The tiled computation's result array. -/
def tileArr (a0 : (⟨3, ![8, 2048, 1024]⟩ : Shape).Idx → EReal) (a1 a2 : (⟨2, ![64, 1024]⟩ : Shape).Idx → EReal)
    (a3 : (⟨2, ![1024, 1024]⟩ : Shape).Idx → EReal) (a4 : (⟨2, ![64, 1024]⟩ : Shape).Idx → EReal)
    (a5 : (⟨2, ![1024, 64]⟩ : Shape).Idx → EReal) : (⟨3, ![8, 2048, 1024]⟩ : Shape).Idx → EReal :=
  fun i => tileOut (batchRows a0 (i 0)) (mat a1) (mat a2) (mat a3) (mat a4) (mat a5) (i 1) (i 2)

/-- On arrays of real numbers the tiled array is the reference's. -/
theorem tileArr_eq_refArr (a0 : (⟨3, ![8, 2048, 1024]⟩ : Shape).Idx → EReal) (a1 a2 : (⟨2, ![64, 1024]⟩ : Shape).Idx → EReal)
    (a3 : (⟨2, ![1024, 1024]⟩ : Shape).Idx → EReal) (a4 : (⟨2, ![64, 1024]⟩ : Shape).Idx → EReal)
    (a5 : (⟨2, ![1024, 64]⟩ : Shape).Idx → EReal)
    (h0 : ∀ i, ∃ r : ℝ, a0 i = r) (h1 : ∀ i, ∃ r : ℝ, a1 i = r) (h2 : ∀ i, ∃ r : ℝ, a2 i = r)
    (h3 : ∀ i, ∃ r : ℝ, a3 i = r) (h4 : ∀ i, ∃ r : ℝ, a4 i = r) (h5 : ∀ i, ∃ r : ℝ, a5 i = r) :
    tileArr a0 a1 a2 a3 a4 a5 = refArr a0 a1 a2 a3 a4 a5 := by
  funext i
  exact congrFun (congrFun (tileOut_eq_refOut_of_real (batchRows a0 (i 0)) (mat a1) (mat a2) (mat a3) (mat a4) (mat a5)
    (fun n d => h0 (ix3 (i 0) n d)) (fun p q => h1 (ix2 p q)) (fun p q => h2 (ix2 p q)) (fun p q => h3 (ix2 p q))
    (fun p q => h4 (ix2 p q)) (fun p q => h5 (ix2 p q))) (i 1)) (i 2)

end LinAttn

end
-- ==== Proof.KernelArray.lean ====
/-
  From the body to the result array.  Grid point t stages batch entry t of x (block (t, 0, 0) of shape [1, 2048, 1024])
  and, whole, the five weight arrays the host prepared before the call — the transposes of Wq, Wk, Wv (cast to the
  exchange format, the identity on extended reals), of W1 and of W2 — runs the body, and writes the output block back
  as block (t, 0, 0) of the result.  So what point t writes back is block t of ONE array, the tiled array of the six
  ARGUMENTS; the eight blocks cover the result (index i lies in the block of point i₀), and the result array after the
  run is that array.
-/
import proofs.«129097_j8014408974649_2_alg».proof.Proof.Gen.KernelIdeal.Value
import proofs.«129097_j8014408974649_2_alg».proof.Proof.BodyValue
import proofs.«129097_j8014408974649_2_alg».proof.Proof.ArraySpec
import Idealize.ShloMosaic.Lib.StableHlo.Run
import Idealize.ShloMosaic.Lib.ValueLayout

set_option maxRecDepth 16384

noncomputable section

namespace Cert.KernelIdeal.KernelArray

open Cert.KernelIdeal Cert.KernelIdeal.Gen Cert.KernelIdeal.BodyValue Idealize.ShloMosaic Idealize.ShloMosaic.TcCoe Idealize.SL.Sem
open Idealize.ShloMosaic.ValueIdx LinAttn
open Idealize.ShloMosaic.Pipeline (Dat)

/-! ## A block of the tiled array, from blocks that are blocks of the arguments -/

/-- If the six input blocks are batch entry b of x and the transposed weights, the body's output block is batch entry b
    of the tiled array. -/
theorem block_value (a0 : S8x2048x1024.Idx → EReal) (a1 a2 : S64x1024.Idx → EReal) (a3 : S1024x1024.Idx → EReal)
    (a4 : S64x1024.Idx → EReal) (a5 : S1024x64.Idx → EReal)
    (x0 : FVec Ideal S1x2048x1024 .f32) (x1 x2 : FVec Ideal S1024x64 .bf16) (x3 : FVec Ideal S1024x1024 .bf16)
    (x4 : FVec Ideal S1024x64 .f32) (x5 : FVec Ideal S64x1024 .f32) (b : Fin 8)
    (h0 : ∀ n d, x0 (ix3 (0 : Fin 1) n d) = a0 (ix3 b n d)) (h1 : ∀ d k, x1 (ix2 d k) = a1 (ix2 k d))
    (h2 : ∀ d k, x2 (ix2 d k) = a2 (ix2 k d)) (h3 : ∀ d e, x3 (ix2 d e) = a3 (ix2 e d))
    (h4 : ∀ e k, x4 (ix2 e k) = a4 (ix2 k e)) (h5 : ∀ k d, x5 (ix2 k d) = a5 (ix2 d k))
    (n : Fin 2048) (d : Fin 1024) (u : Fin 1) :
    bodyOut x0 x1 x2 x3 x4 x5 (ix3 u n d) = tileArr a0 a1 a2 a3 a4 a5 (ix3 b n d) := by
  have e0 : rowsOf x0 = batchRows a0 b := funext fun n => funext fun d => h0 n d
  have e1 : colsOf64 x1 = mat a1 := funext fun k => funext fun d => h1 d k
  have e2 : colsOf64 x2 = mat a2 := funext fun k => funext fun d => h2 d k
  have e3 : colsOf1024 x3 = mat a3 := funext fun e => funext fun d => h3 d e
  have e4 : colsOf64 x4 = mat a4 := funext fun k => funext fun e => h4 e k
  have e5 : rowsOf64 x5 = mat a5 := funext fun d => funext fun k => h5 k d
  show tileOut (rowsOf x0) (colsOf64 x1) (colsOf64 x2) (colsOf1024 x3) (colsOf64 x4) (rowsOf64 x5) n d
     = tileOut (batchRows a0 b) (mat a1) (mat a2) (mat a3) (mat a4) (mat a5) n d
  rw [e0, e1, e2, e3, e4, e5]

variable (m : (ℓ : Loc nD τ sig) → Buf (Elt Ideal) ℓ) (ρ : Dev nD → PrngReg)

/-! ## The arrays the region finds -/

theorem hostWq (c : Dev nD) : (V m c main_v1 : S1024x64.Idx → EReal)
    = truncf (F := Ideal) .bf16 (transpose S1024x64 [1, 0] (m ((c : Thread nD τ).loc main_arg1)) transposes_S64x1024_S1024x64_1_0) bitsLt_bf16_f32 := by
  dsimp only [Gen.V, Gen.hostOps0]; after_results
theorem hostWk (c : Dev nD) : (V m c main_v3 : S1024x64.Idx → EReal)
    = truncf (F := Ideal) .bf16 (transpose S1024x64 [1, 0] (m ((c : Thread nD τ).loc main_arg2)) transposes_S64x1024_S1024x64_1_0) bitsLt_bf16_f32 := by
  dsimp only [Gen.V, Gen.hostOps0]; after_results
theorem hostWv (c : Dev nD) : (V m c main_v5 : S1024x1024.Idx → EReal)
    = truncf (F := Ideal) .bf16 (transpose S1024x1024 [1, 0] (m ((c : Thread nD τ).loc main_arg3)) transposes_S1024x1024_S1024x1024_1_0) bitsLt_bf16_f32 := by
  dsimp only [Gen.V, Gen.hostOps0]; after_results
theorem hostW1 (c : Dev nD) : (V m c main_v6 : S1024x64.Idx → EReal)
    = transpose S1024x64 [1, 0] (m ((c : Thread nD τ).loc main_arg4)) transposes_S64x1024_S1024x64_1_0 := by
  dsimp only [Gen.V, Gen.hostOps0]; after_results
theorem hostW2 (c : Dev nD) : (V m c main_v7 : S64x1024.Idx → EReal)
    = transpose S64x1024 [1, 0] (m ((c : Thread nD τ).loc main_arg5)) transposes_S1024x64_S64x1024_1_0 := by
  dsimp only [Gen.V, Gen.hostOps0]; after_results

/-- The printed index maps, decided over the eight grid points: x and the result move with the point along the batch
    axis, the weights stay at block (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

theorem t_lt (t : Fin cfg0.N) : t.val < 8 := lt_of_lt_of_eq t.isLt N_0

/-! ## The blocks at a point -/

theorem blk0 (c : Dev nD) (t : Fin cfg0.N) (n : Fin 2048) (d : Fin 1024) :
    iblk m c 0 t (ix3 (0 : Fin 1) n d) = (m ((c : Thread nD τ).loc main_arg0)) (ix3 (⟨t.val, t_lt t⟩ : Fin 8) n d) := by
  show V m c main_arg0 (((cfg0.win 0).blk t).view.emb (ix3 (0 : Fin 1) n d)) = _
  refine (congrFun (V_main_arg0 m c) _).trans (congrArg _ (funext fun a => Fin.ext ?_))
  obtain ⟨e0, e1, e2, -⟩ := idx_facts t
  match a with
  | ⟨0, _⟩ => show win0_0.index t (0 : Fin 3) * 1 + 1 * 0 = t.val; omega
  | ⟨1, _⟩ => show win0_0.index t (1 : Fin 3) * 2048 + 1 * n.val = n.val; omega
  | ⟨2, _⟩ => show win0_0.index t (2 : Fin 3) * 1024 + 1 * d.val = d.val; omega

theorem blk1 (c : Dev nD) (t : Fin cfg0.N) (d : Fin 1024) (k : Fin 64) :
    iblk m c 1 t (ix2 d k) = (m ((c : Thread nD τ).loc main_arg1)) (ix2 k d) := by
  show V m c main_v1 (((cfg0.win 1).blk t).view.emb (ix2 d k)) = _
  obtain ⟨-, -, -, e0, e1, -⟩ := idx_facts t
  have hi : ((cfg0.win 1).blk t).view.emb (ix2 d k) = ix2 d k := funext fun a => Fin.ext (by
    match a with
    | ⟨0, _⟩ => show win0_1.index t (0 : Fin 2) * 1024 + 1 * d.val = d.val; omega
    | ⟨1, _⟩ => show win0_1.index t (1 : Fin 2) * 64 + 1 * k.val = k.val; omega)
  rw [hi]
  refine (congrFun (hostWq m c) _).trans ?_
  exact transpose_ix2_apply _ _ d k

theorem blk2 (c : Dev nD) (t : Fin cfg0.N) (d : Fin 1024) (k : Fin 64) :
    iblk m c 2 t (ix2 d k) = (m ((c : Thread nD τ).loc main_arg2)) (ix2 k d) := by
  show V m c main_v3 (((cfg0.win 2).blk t).view.emb (ix2 d k)) = _
  obtain ⟨-, -, -, -, -, e0, e1, -⟩ := idx_facts t
  have hi : ((cfg0.win 2).blk t).view.emb (ix2 d k) = ix2 d k := funext fun a => Fin.ext (by
    match a with
    | ⟨0, _⟩ => show win0_2.index t (0 : Fin 2) * 1024 + 1 * d.val = d.val; omega
    | ⟨1, _⟩ => show win0_2.index t (1 : Fin 2) * 64 + 1 * k.val = k.val; omega)
  rw [hi]
  refine (congrFun (hostWk m c) _).trans ?_
  exact transpose_ix2_apply _ _ d k

theorem blk3 (c : Dev nD) (t : Fin cfg0.N) (d : Fin 1024) (e : Fin 1024) :
    iblk m c 3 t (ix2 d e) = (m ((c : Thread nD τ).loc main_arg3)) (ix2 e d) := by
  show V m c main_v5 (((cfg0.win 3).blk t).view.emb (ix2 d e)) = _
  obtain ⟨-, -, -, -, -, -, -, e0, e1, -⟩ := idx_facts t
  have hi : ((cfg0.win 3).blk t).view.emb (ix2 d e) = ix2 d e := funext fun a => Fin.ext (by
    match a with
    | ⟨0, _⟩ => show win0_3.index t (0 : Fin 2) * 1024 + 1 * d.val = d.val; omega
    | ⟨1, _⟩ => show win0_3.index t (1 : Fin 2) * 1024 + 1 * e.val = e.val; omega)
  rw [hi]
  refine (congrFun (hostWv m c) _).trans ?_
  exact transpose_ix2_apply _ _ d e

theorem blk4 (c : Dev nD) (t : Fin cfg0.N) (e : Fin 1024) (k : Fin 64) :
    iblk m c 4 t (ix2 e k) = (m ((c : Thread nD τ).loc main_arg4)) (ix2 k e) := by
  show V m c main_v6 (((cfg0.win 4).blk t).view.emb (ix2 e k)) = _
  obtain ⟨-, -, -, -, -, -, -, -, -, e0, e1, -⟩ := idx_facts t
  have hi : ((cfg0.win 4).blk t).view.emb (ix2 e k) = ix2 e k := funext fun a => Fin.ext (by
    match a with
    | ⟨0, _⟩ => show win0_4.index t (0 : Fin 2) * 1024 + 1 * e.val = e.val; omega
    | ⟨1, _⟩ => show win0_4.index t (1 : Fin 2) * 64 + 1 * k.val = k.val; omega)
  rw [hi]
  refine (congrFun (hostW1 m c) _).trans ?_
  exact transpose_ix2_apply _ _ e k

theorem blk5 (c : Dev nD) (t : Fin cfg0.N) (k : Fin 64) (d : Fin 1024) :
    iblk m c 5 t (ix2 k d) = (m ((c : Thread nD τ).loc main_arg5)) (ix2 d k) := by
  show V m c main_v7 (((cfg0.win 5).blk t).view.emb (ix2 k d)) = _
  obtain ⟨-, -, -, -, -, -, -, -, -, -, -, e0, e1, -⟩ := idx_facts t
  have hi : ((cfg0.win 5).blk t).view.emb (ix2 k d) = ix2 k d := funext fun a => Fin.ext (by
    match a with
    | ⟨0, _⟩ => show win0_5.index t (0 : Fin 2) * 64 + 1 * k.val = k.val; omega
    | ⟨1, _⟩ => show win0_5.index t (1 : Fin 2) * 1024 + 1 * d.val = d.val; omega)
  rw [hi]
  refine (congrFun (hostW2 m c) _).trans ?_
  exact transpose_ix2_apply _ _ k d

/-! ## What a point writes back, the cover, the array -/

/-- The tiled array of the six arguments as launched. -/
abbrev result (c : Dev nD) : S8x2048x1024.Idx → EReal :=
  tileArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- WHAT POINT t WRITES BACK is block t of the tiled array. -/
theorem flushed_eq (c : Dev nD) (t : Fin cfg0.N) :
    (dats m 0 c).flushed 6 t = ((cfg0.win 6).blk t).view.read (Elt Ideal) (result m c) := by
  rw [Cert.KernelIdeal.Value.flushed6_A, out_eq]
  funext j
  obtain ⟨u, n, d, rfl⟩ : ∃ (u : Fin 1) (n : Fin 2048) (d : Fin 1024), j = ix3 u n d := ⟨j 0, j 1, j 2, eq_ix3 j⟩
  show bodyOut (iblk m c 0 t) (iblk m c 1 t) (iblk m c 2 t) (iblk m c 3 t) (iblk m c 4 t) (iblk m c 5 t) (ix3 u n d)
    = result m c (((cfg0.win 6).blk t).view.emb (ix3 u n d))
  obtain ⟨-, -, -, -, -, -, -, -, -, -, -, -, -, e0, e1, e2⟩ := idx_facts t
  have hi : ((cfg0.win 6).blk t).view.emb (ix3 u n d) = ix3 (⟨t.val, t_lt t⟩ : Fin 8) n d := funext fun a => Fin.ext (by
    have hu := u.isLt
    match a with
    | ⟨0, _⟩ => show win0_6.index t (0 : Fin 3) * 1 + 1 * u.val = t.val; omega
    | ⟨1, _⟩ => show win0_6.index t (1 : Fin 3) * 2048 + 1 * n.val = n.val; omega
    | ⟨2, _⟩ => show win0_6.index t (2 : Fin 3) * 1024 + 1 * d.val = d.val; omega)
  rw [hi]
  exact block_value _ _ _ _ _ _ _ _ _ _ _ _ ⟨t.val, t_lt t⟩ (blk0 m c t) (blk1 m c t) (blk2 m c t) (blk3 m c t) (blk4 m c t) (blk5 m c t) n d u

/-- An index of the result is in point t's block iff each coordinate is in the block's range on its axis. -/
theorem mem_blk (t : Fin cfg0.N) (i : S8x2048x1024.Idx) :
    i ∈ ((cfg0.win 6).blk t).view.set ↔ ∀ a : Fin 3, win0_6.index t a * S1x2048x1024.size a ≤ (i a).val ∧ (i a).val < win0_6.index t a * S1x2048x1024.size a + S1x2048x1024.size a := by
  show i ∈ ((View.whole main_v8).slice (win0_6.rect t)).set ↔ _
  rw [View.set_slice_whole, Rect.mem_set_unit]
  exact Iff.rfl

/-- Every index of the result lies in the block of the point named by its batch coordinate. -/
theorem cover (i : S8x2048x1024.Idx) : ∃ t : Fin cfg0.N, (cfg0.win 6).flush t = true ∧ i ∈ ((cfg0.win 6).blk t).view.set := by
  have hN : cfg0.N = 8 := N_0
  have h0 : (i 0).val < 8 := (i 0).isLt
  have h1 : (i 1).val < 2048 := (i 1).isLt
  have h2 : (i 2).val < 1024 := (i 2).isLt
  obtain ⟨t, ht⟩ : ∃ t : Fin cfg0.N, t.val = (i 0).val := ⟨⟨(i 0).val, by omega⟩, rfl⟩
  refine ⟨t, flush0_6 t, ?_⟩
  rw [mem_blk]
  obtain ⟨-, -, -, -, -, -, -, -, -, -, -, -, -, e0, e1, e2⟩ := idx_facts t
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 2048 ≤ (i 1).val ∧ (i 1).val < win0_6.index t (1 : Fin 3) * 2048 + 2048; omega
  | ⟨2, _⟩ => show win0_6.index t (2 : Fin 3) * 1024 ≤ (i 2).val ∧ (i 2).val < win0_6.index t (2 : Fin 3) * 1024 + 1024; omega

/-- THE RESULT ARRAY after the run is the tiled array of the arguments. -/
theorem final (c : Dev nD) : (dats m 0 c).arrAt 6 cfg0.N = result m c :=
  (dats m 0 c).arrAt_eq_of_cover 6 (result m c) (fun t _ => flushed_eq m c t) (cover)

/-- The kernel's run, read: the result at the tiled array of the arguments, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.KernelArray

end
-- ==== Proof.RefRead.lean ====
/-
  The reference's eight host operations read at an entry, at the exact instance, and put together: entry (b, n, d) of its
  result is the scores-first attention-plus-feed-forward output of batch entry b at row n and column d.  Each
  `dot_general` is the sum over its one contracted axis of the products of its operands' entries; the two batched ones
  keep the batch coordinate on both operands.
-/
import proofs.«129097_j8014408974649_2_alg».proof.Proof.Gen.ReferenceIdeal.Read
import proofs.«129097_j8014408974649_2_alg».proof.Proof.ArraySpec

noncomputable section

namespace Cert.ReferenceIdeal.RefValue

open Cert.ReferenceIdeal Cert.ReferenceIdeal.Read Idealize.ShloMosaic Idealize.ShloMosaic.ValueIdx LinAttn

variable (x0 : (⟨S8x2048x1024, .f32⟩ : BufTy).Contents (Elt Ideal)) (x1 x2 : (⟨S64x1024, .f32⟩ : BufTy).Contents (Elt Ideal)) (x3 : (⟨S1024x1024, .f32⟩ : BufTy).Contents (Elt Ideal)) (x4 : (⟨S64x1024, .f32⟩ : BufTy).Contents (Elt Ideal)) (x5 : (⟨S1024x64, .f32⟩ : BufTy).Contents (Elt Ideal))

/-- Q = x Wqᵀ. -/
theorem q_apply (b : Fin 8) (n : Fin 2048) (k : Fin 64) :
    val_main_v0 (F := Ideal) x0 x1 (ix3 b n k) = proj (batchRows x0 b) (mat x1) n k := by
  rw [val_main_v0_apply]
  refine Finset.sum_congr rfl fun d _ => ?_
  have el : lidx_main_v0 (ix3 b n k) d = ix3 b n d := funext fun a => Fin.ext (by match a with | ⟨0, _⟩ => rfl | ⟨1, _⟩ => rfl | ⟨2, _⟩ => rfl)
  have er : ridx_main_v0 (ix3 b n k) d = ix2 k d := funext fun a => Fin.ext (by match a with | ⟨0, _⟩ => rfl | ⟨1, _⟩ => rfl)
  rw [el, er]; rfl

/-- K = x Wkᵀ. -/
theorem k_apply (b : Fin 8) (n : Fin 2048) (k : Fin 64) :
    val_main_v1 (F := Ideal) x0 x2 (ix3 b n k) = proj (batchRows x0 b) (mat x2) n k := by
  rw [val_main_v1_apply]
  refine Finset.sum_congr rfl fun d _ => ?_
  have el : lidx_main_v1 (ix3 b n k) d = ix3 b n d := funext fun a => Fin.ext (by match a with | ⟨0, _⟩ => rfl | ⟨1, _⟩ => rfl | ⟨2, _⟩ => rfl)
  have er : ridx_main_v1 (ix3 b n k) d = ix2 k d := funext fun a => Fin.ext (by match a with | ⟨0, _⟩ => rfl | ⟨1, _⟩ => rfl)
  rw [el, er]; rfl

/-- V = x Wvᵀ. -/
theorem v_apply (b : Fin 8) (n : Fin 2048) (e : Fin 1024) :
    val_main_v2 (F := Ideal) x0 x3 (ix3 b n e) = proj (batchRows x0 b) (mat x3) n e := by
  rw [val_main_v2_apply]
  refine Finset.sum_congr rfl fun d _ => ?_
  have el : lidx_main_v2 (ix3 b n e) d = ix3 b n d := funext fun a => Fin.ext (by match a with | ⟨0, _⟩ => rfl | ⟨1, _⟩ => rfl | ⟨2, _⟩ => rfl)
  have er : ridx_main_v2 (ix3 b n e) d = ix2 e d := funext fun a => Fin.ext (by match a with | ⟨0, _⟩ => rfl | ⟨1, _⟩ => rfl)
  rw [el, er]; rfl

/-- The scores Q Kᵀ, batch by batch. -/
theorem scores_apply (b : Fin 8) (n m : Fin 2048) :
    val_main_v3 (F := Ideal) x0 x1 x2 (ix3 b n m)
      = scores (proj (batchRows x0 b) (mat x1)) (proj (batchRows x0 b) (mat x2)) n m := by
  rw [val_main_v3_apply]
  refine Finset.sum_congr rfl fun k _ => ?_
  have el : lidx_main_v3 (ix3 b n m) k = ix3 b n k := funext fun a => Fin.ext (by match a with | ⟨0, _⟩ => rfl | ⟨1, _⟩ => rfl | ⟨2, _⟩ => rfl)
  have er : ridx_main_v3 (ix3 b n m) k = ix3 b m k := funext fun a => Fin.ext (by match a with | ⟨0, _⟩ => rfl | ⟨1, _⟩ => rfl | ⟨2, _⟩ => rfl)
  rw [el, er, q_apply, k_apply]

/-- (Q Kᵀ) V, batch by batch. -/
theorem attn_apply (b : Fin 8) (n : Fin 2048) (e : Fin 1024) :
    val_main_v4 (F := Ideal) x0 x1 x2 x3 (ix3 b n e)
      = attnRef (proj (batchRows x0 b) (mat x1)) (proj (batchRows x0 b) (mat x2)) (proj (batchRows x0 b) (mat x3)) n e := by
  rw [val_main_v4_apply]
  refine Finset.sum_congr rfl fun m _ => ?_
  have el : lidx_main_v4 (ix3 b n e) m = ix3 b n m := funext fun a => Fin.ext (by match a with | ⟨0, _⟩ => rfl | ⟨1, _⟩ => rfl | ⟨2, _⟩ => rfl)
  have er : ridx_main_v4 (ix3 b n e) m = ix3 b m e := funext fun a => Fin.ext (by match a with | ⟨0, _⟩ => rfl | ⟨1, _⟩ => rfl | ⟨2, _⟩ => rfl)
  rw [el, er, scores_apply, v_apply]

/-- The result. -/
theorem out_apply (b : Fin 8) (n : Fin 2048) (d : Fin 1024) :
    val_main_v7 (F := Ideal) x0 x1 x2 x3 x4 x5 (ix3 b n d)
      = refOut (batchRows x0 b) (mat x1) (mat x2) (mat x3) (mat x4) (mat x5) n d := by
  rw [val_main_v7_apply]
  unfold refOut tail
  refine Finset.sum_congr rfl fun k _ => ?_
  have el : lidx_main_v7 (ix3 b n d) k = ix3 b n k := funext fun a => Fin.ext (by match a with | ⟨0, _⟩ => rfl | ⟨1, _⟩ => rfl | ⟨2, _⟩ => rfl)
  have er : ridx_main_v7 (ix3 b n d) k = ix2 d k := funext fun a => Fin.ext (by match a with | ⟨0, _⟩ => rfl | ⟨1, _⟩ => rfl)
  rw [el, er, val_main_v6_apply]
  refine congrArg₂ (fun a b : EReal => a * b) (Finset.sum_congr rfl fun e _ => ?_) rfl
  have el6 : lidx_main_v6 (ix3 b n k) e = ix3 b n e := funext fun a => Fin.ext (by match a with | ⟨0, _⟩ => rfl | ⟨1, _⟩ => rfl | ⟨2, _⟩ => rfl)
  have er6 : ridx_main_v6 (ix3 b n k) e = ix2 k e := funext fun a => Fin.ext (by match a with | ⟨0, _⟩ => rfl | ⟨1, _⟩ => rfl)
  rw [el6, er6, val_main_v5_apply, attn_apply]
  rfl

/-- The reference's result array is the scores-first array of its arguments. -/
theorem result_eq : val_main_v7 (F := Ideal) x0 x1 x2 x3 x4 x5 = refArr x0 x1 x2 x3 x4 x5 := by
  funext i
  obtain ⟨b, n, d, rfl⟩ : ∃ (b : Fin 8) (n : Fin 2048) (d : Fin 1024), i = ix3 b n d := ⟨i 0, i 1, i 2, eq_ix3 i⟩
  exact out_apply x0 x1 x2 x3 x4 x5 b n d

end Cert.ReferenceIdeal.RefValue

end
-- ==== Proof.Finite.lean ====
/-
  The precondition, decoded: when the printed predicate — every entry of every argument has absolute value below +∞,
  all six conjoined — is true, every entry of every argument is a real number.  An extended real x with
  max x (−x) < +∞ is neither +∞ nor −∞.
-/
import proofs.«129097_j8014408974649_2_alg».proof.Pre_finite_inputs
import proofs.«129097_j8014408974649_2_alg».proof.Proof.Gen.Pre_finite_inputs
import Idealize.ShloMosaic.Lib.ReduceAll
import Idealize.ShloMosaic.Lib.Affine
import Idealize.ShloMosaic.Lib.ValueIdx
import Idealize.ShloMosaic.PureOps.Ideal

noncomputable section

namespace Cert.Pre_finite_inputs.Finite

open Cert.Pre_finite_inputs Idealize.ShloMosaic

instance : Subsingleton S_.Idx := ⟨fun a b => funext fun d => d.elim0⟩

/-- An extended real whose absolute value compares below the f32 pattern of +∞ is a real number. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = r := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  have hlt : max x (-x) < ⊤ := by
    by_contra hn
    have hd : decide (max x (-x) < ⊤) = false := decide_eq_false hn
    have h0 : Ideal.cmp .olt (max x (-x)) ⊤ = 0#1 := by
      show BitVec.ofBool (decide (max x (-x) < ⊤)) = 0#1
      rw [hd]; rfl
    rw [h0] at h'
    exact absurd h' (by decide)
  induction x using EReal.rec with
  | bot => simp at hlt
  | coe r => exact ⟨r, rfl⟩
  | top => simp at hlt

variable [hP : Cert.Pre_finite_inputs.Facts]

/-- The printed precondition, true, makes every entry of every argument a real number. -/
theorem real_of_pre (a0 : FVec Ideal S8x2048x1024 .f32) (a1 a2 : FVec Ideal S64x1024 .f32) (a3 : FVec Ideal S1024x1024 .f32)
    (a4 : FVec Ideal S64x1024 .f32) (a5 : FVec Ideal S1024x64 .f32)
    (h : fn (F := Ideal) a0 a1 a2 a3 a4 a5 = fun _ => 1#1) :
    (∀ i, ∃ r : ℝ, a0 i = r) ∧ (∀ i, ∃ r : ℝ, a1 i = r) ∧ (∀ i, ∃ r : ℝ, a2 i = r)
      ∧ (∀ i, ∃ r : ℝ, a3 i = r) ∧ (∀ i, ∃ r : ℝ, a4 i = r) ∧ (∀ i, ∃ r : ℝ, a5 i = r) := by
  have h' := congrFun h ValueIdx.ix0
  dsimp only [fn, fn_part1] at h'
  obtain ⟨h', e5⟩ := IntOp.andi_eq_one.mp h'
  obtain ⟨h', e4⟩ := IntOp.andi_eq_one.mp h'
  obtain ⟨h', e3⟩ := IntOp.andi_eq_one.mp h'
  obtain ⟨h', e2⟩ := IntOp.andi_eq_one.mp h'
  obtain ⟨e0, e1⟩ := IntOp.andi_eq_one.mp h'
  exact ⟨fun i => real_of_abs_lt (a0 i) (Host.reduce_andi_all _ _ _ _ _ e0 i),
    fun i => real_of_abs_lt (a1 i) (Host.reduce_andi_all _ _ _ _ _ e1 i),
    fun i => real_of_abs_lt (a2 i) (Host.reduce_andi_all _ _ _ _ _ e2 i),
    fun i => real_of_abs_lt (a3 i) (Host.reduce_andi_all _ _ _ _ _ e3 i),
    fun i => real_of_abs_lt (a4 i) (Host.reduce_andi_all _ _ _ _ _ e4 i),
    fun i => real_of_abs_lt (a5 i) (Host.reduce_andi_all _ _ _ _ _ e5 i)⟩

end Cert.Pre_finite_inputs.Finite

end
-- ==== Proof.lean ====
/-
  The kernel computes, for each of the 8 batch entries, linear (softmax-free) attention followed by a two-layer
  feed-forward tail, out = ((x + Q (Kᵀ V)) W1ᵀ) W2ᵀ with Q = x Wqᵀ, K = x Wkᵀ, V = x Wvᵀ: one grid point per batch
  entry, the 2048 rows cut into four tiles of 512, Kᵀ V accumulated tile by tile in a scratch buffer, the tiles of Q kept
  in a second one.  The reference computes out = ((x + (Q Kᵀ) V) W1ᵀ) W2ᵀ, the 2048 × 2048 scores first.

  Over the extended reals, where every float operation is exact and a change of float format is the identity, the two
  results are the same array whenever the inputs are finite: (Q Kᵀ) V = Q (Kᵀ V) is associativity of the matrix product
  — distributivity and an exchange of two finite sums, valid on real numbers and not at the infinities, which is where
  the precondition is used — and the sum over the 2048 rows is the sum over the four tiles of the sums inside each.

    Attention     the two computations over a commutative semiring, the law, and its transfer to real-valued extended reals
    ArraySpec     the two result arrays as functions of the six argument arrays
    MatmulRead    the body's four matrix products read at an entry
    TileRead      the three per-tile computations of the body read at an entry
    BodyWords     what the two scratch buffers hold when read back
    BodyValue     the output block after the body, as one function of the input blocks
    KernelArray   the blocks are blocks of the arguments; the result array after the kernel's run
    RefRead       the reference's operations read at an entry; its result array
    Finite        the precondition makes every input entry a real number

  The three frame claims are the generated frame runs; the idealized kernel is the kernel's own text read over the
  extended reals (no operation was rewritten), so `preserves` has nothing to state.
-/
import proofs.«129097_j8014408974649_2_alg».proof.Defs
import proofs.«129097_j8014408974649_2_alg».proof.Proof.Gen.Kernel
import proofs.«129097_j8014408974649_2_alg».proof.Proof.Gen.Kernel.Skeleton
import proofs.«129097_j8014408974649_2_alg».proof.Proof.Gen.Kernel.Launch
import proofs.«129097_j8014408974649_2_alg».proof.Proof.Gen.Kernel.Points
import proofs.«129097_j8014408974649_2_alg».proof.Proof.Gen.Kernel.Frame
import proofs.«129097_j8014408974649_2_alg».proof.Proof.Gen.KernelIdeal
import proofs.«129097_j8014408974649_2_alg».proof.Proof.Gen.KernelIdeal.Skeleton
import proofs.«129097_j8014408974649_2_alg».proof.Proof.Gen.KernelIdeal.Launch
import proofs.«129097_j8014408974649_2_alg».proof.Proof.Gen.KernelIdeal.Points
import proofs.«129097_j8014408974649_2_alg».proof.Proof.Gen.KernelIdeal.Frame
import proofs.«129097_j8014408974649_2_alg».proof.Proof.Gen.ReferenceIdeal
import proofs.«129097_j8014408974649_2_alg».proof.Proof.Gen.Pre_finite_inputs
import proofs.«129097_j8014408974649_2_alg».proof.Proof.Gen.KernelIdeal.Value
import proofs.«129097_j8014408974649_2_alg».proof.Proof.Gen.ReferenceIdeal.Run
import proofs.«129097_j8014408974649_2_alg».proof.Proof.Gen.ReferenceIdeal.Read
import proofs.«129097_j8014408974649_2_alg».proof.Proof.KernelArray
import proofs.«129097_j8014408974649_2_alg».proof.Proof.RefRead
import proofs.«129097_j8014408974649_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the scores-first array of the arguments: the kernel with the tiled array, which on finite
    inputs is that array; the reference with its operations' composed term, which is that array index by index. -/
theorem algebraic : Cert.algebraic_KernelIdeal_ReferenceIdeal := by
  intro m ρ m' ρ' hpre hagree
  refine ⟨fun c => LinAttn.refArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩) (Cert.KernelIdeal.KernelArray.run m ρ)
    obtain ⟨f0, f1, f2, f3, f4, f5⟩ := Cert.Pre_finite_inputs.Finite.real_of_pre _ _ _ _ _ _ (hpre c)
    exact LinAttn.tileArr_eq_refArr _ _ _ _ _ _ f0 f1 f2 f3 f4 f5
  · refine (θ_run Cert.ReferenceIdeal.defs _ _).mono (fun _ h c => ⟨?_, (h c).2⟩) (Cert.ReferenceIdeal.Value.run (F := Ideal) m' ρ')
    rw [(h c).1, Cert.ReferenceIdeal.Read.val_main_v7_eq, Cert.ReferenceIdeal.RefValue.result_eq,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
